-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x100 : Shape := ⟨2, ![100000, 100]⟩
abbrev S2x1600000 : Shape := ⟨2, ![2, 1600000]⟩
abbrev S100x64 : Shape := ⟨2, ![100, 64]⟩
abbrev S64 : Shape := ⟨1, ![64]⟩
abbrev S64x47 : Shape := ⟨2, ![64, 47]⟩
abbrev S47 : Shape := ⟨1, ![47]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S100x64 : S_.BroadcastsInDim S100x64 (![] : Fin 0 → Fin S100x64.rank)
  reducesTo_S100x64_S_d0_1 : S100x64.ReducesTo [0, 1] S_
  bcast_S_S64 : S_.BroadcastsInDim S64 (![] : Fin 0 → Fin S64.rank)
  reducesTo_S64_S_d0 : S64.ReducesTo [0] S_
  bcast_S_S64x47 : S_.BroadcastsInDim S64x47 (![] : Fin 0 → Fin S64x47.rank)
  reducesTo_S64x47_S_d0_1 : S64x47.ReducesTo [0, 1] S_
  bcast_S_S47 : S_.BroadcastsInDim S47 (![] : Fin 0 → Fin S47.rank)
  reducesTo_S47_S_d0 : S47.ReducesTo [0] S_

variable [Facts]

def fn_part1 {F : FTy → Type} [FloatOps F] (main_arg5 : FVec F S47 .f32) (main_v13 : IVec S_ 1) (main_v16 : IVec S64x47 1) : IVec S_ 1 :=
  let main_c_5 : IVec S_ 1 := constantI S_ 1 1#1
  let main_v17 : IVec S_ 1 := (fun x v => Host.reduce IntOp.andi x v reducesTo_S64x47_S_d0_1 h_S_) main_v16 main_c_5
  let main_v18 : IVec S_ 1 := andi main_v13 main_v17
  let main_v19 : FVec F S47 .f32 := Host.absf main_arg5
  let main_cst_6 : FVec F S_ .f32 := constant S_ .f32 0x7F800000#32
  let main_v20 : FVec F S47 .f32 := broadcastInDim S47 ![] bcast_S_S47 main_cst_6
  let main_v21 : IVec S47 1 := cmpf .olt main_v19 main_v20
  let main_c_7 : IVec S_ 1 := constantI S_ 1 1#1
  let main_v22 : IVec S_ 1 := (fun x v => Host.reduce IntOp.andi x v reducesTo_S47_S_d0 h_S_) main_v21 main_c_7
  let main_v23 : IVec S_ 1 := andi main_v18 main_v22
  main_v23

def fn {F : FTy → Type} [FloatOps F] (main_arg0 : FVec F S100000x100 .f32) (main_arg1 : IVec S2x1600000 32) (main_arg2 : FVec F S100x64 .f32) (main_arg3 : FVec F S64 .f32) (main_arg4 : FVec F S64x47 .f32) (main_arg5 : FVec F S47 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S100x64 .f32 := Host.absf main_arg2
  let main_cst_0 : FVec F S_ .f32 := constant S_ .f32 0x7F800000#32
  let main_v5 : FVec F S100x64 .f32 := broadcastInDim S100x64 ![] bcast_S_S100x64 main_cst_0
  let main_v6 : IVec S100x64 1 := cmpf .olt main_v4 main_v5
  let main_c_1 : IVec S_ 1 := constantI S_ 1 1#1
  let main_v7 : IVec S_ 1 := (fun x v => Host.reduce IntOp.andi x v reducesTo_S100x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x47 .f32 := Host.absf main_arg4
  let main_cst_4 : FVec F S_ .f32 := constant S_ .f32 0x7F800000#32
  let main_v15 : FVec F S64x47 .f32 := broadcastInDim S64x47 ![] bcast_S_S64x47 main_cst_4
  let main_v16 : IVec S64x47 1 := cmpf .olt main_v14 main_v15
  fn_part1 (F := F) main_arg5 main_v13 main_v16
-- ==== Kernel.lean ====
abbrev S100000x100 : Shape := ⟨2, ![100000, 100]⟩
abbrev S2x1600000 : Shape := ⟨2, ![2, 1600000]⟩
abbrev S100x64 : Shape := ⟨2, ![100, 64]⟩
abbrev S64 : Shape := ⟨1, ![64]⟩
abbrev S64x47 : Shape := ⟨2, ![64, 47]⟩
abbrev S47 : Shape := ⟨1, ![47]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x100 : Shape := ⟨2, ![5000, 100]⟩
abbrev S5000x64 : Shape := ⟨2, ![5000, 64]⟩
abbrev S1700000x64 : Shape := ⟨2, ![1700000, 64]⟩
abbrev S1x64 : Shape := ⟨2, ![1, 64]⟩
abbrev S100000x47 : Shape := ⟨2, ![100000, 47]⟩
abbrev S5000x47 : Shape := ⟨2, ![5000, 47]⟩
abbrev S1700000x47 : Shape := ⟨2, ![1700000, 47]⟩
abbrev S1x47 : Shape := ⟨2, ![1, 47]⟩

abbrev nBuf : Space → Nat
  | .hbm => 84
  | .vmem => 20
  | .smem => 0
  | _ => 0

abbrev bufTy : (tb : Table) → Fin (tcTables nBuf tb) → BufTy
  | .hbm, ⟨0, _⟩ => ⟨S100000x100, .f32⟩
  | .hbm, ⟨1, _⟩ => ⟨S2x1600000, .i32⟩
  | .hbm, ⟨2, _⟩ => ⟨S100x64, .f32⟩
  | .hbm, ⟨3, _⟩ => ⟨S64, .f32⟩
  | .hbm, ⟨4, _⟩ => ⟨S64x47, .f32⟩
  | .hbm, ⟨5, _⟩ => ⟨S47, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x47, .f32⟩
  | .hbm, ⟨66, _⟩ => ⟨S1700000x1, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x47, .f32⟩
  | .hbm, ⟨76, _⟩ => ⟨S1700000x47, .f32⟩
  | .hbm, ⟨77, _⟩ => ⟨S1700000x47, .f32⟩
  | .hbm, ⟨78, _⟩ => ⟨S_, .f32⟩
  | .hbm, ⟨79, _⟩ => ⟨S100000x47, .f32⟩
  | .hbm, ⟨80, _⟩ => ⟨S1700000x1, .i32⟩
  | .hbm, ⟨81, _⟩ => ⟨S100000x47, .f32⟩
  | .hbm, ⟨82, _⟩ => ⟨S1x47, .f32⟩
  | .hbm, ⟨83, _⟩ => ⟨S100000x47, .f32⟩
  | .local _ .vmem, ⟨0, _⟩ => ⟨S5000x100, .f32⟩
  | .local _ .vmem, ⟨1, _⟩ => ⟨S5000x100, .f32⟩
  | .local _ .vmem, ⟨2, _⟩ => ⟨S100x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x47, .f32⟩
  | .local _ .vmem, ⟨13, _⟩ => ⟨S5000x47, .f32⟩
  | .local _ .vmem, ⟨14, _⟩ => ⟨S5000x47, .f32⟩
  | .local _ .vmem, ⟨15, _⟩ => ⟨S5000x47, .f32⟩
  | .local _ .vmem, ⟨16, _⟩ => ⟨S5000x47, .f32⟩
  | .local _ .vmem, ⟨17, _⟩ => ⟨S1x47, .f32⟩
  | .local _ .vmem, ⟨18, _⟩ => ⟨S5000x47, .f32⟩
  | .local _ .vmem, ⟨19, _⟩ => ⟨S5000x47, .f32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x47 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x47 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x47 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x47 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x47 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x100_S5000x100_0_0 : ∀ a, (![0, 0] : Fin 2 → Nat) a + S5000x100.size a ≤ S5000x100.size a
  h_S5000x100 : 0 < S5000x100.numel
  bitsLt_bf16_f32 : FTy.bits .bf16 < FTy.bits .f32
  inb_S100x64_S100x64_0_0 : ∀ a, (![0, 0] : Fin 2 → Nat) a + S100x64.size a ≤ S100x64.size a
  h_S100x64 : 0 < S100x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x47_S64x47_0_0 : ∀ a, (![0, 0] : Fin 2 → Nat) a + S64x47.size a ≤ S64x47.size a
  h_S64x47 : 0 < S64x47.numel
  inb_S5000x47_S5000x47_0_0 : ∀ a, (![0, 0] : Fin 2 → Nat) a + S5000x47.size a ≤ S5000x47.size a
  h_S5000x47 : 0 < S5000x47.numel
  bcast_S1700000x1_S1700000x47_0_1 : S1700000x1.BroadcastsInDim S1700000x47 (![0, 1] : Fin 2 → Fin S1700000x47.rank)
  bcast_S_S100000x47 : S_.BroadcastsInDim S100000x47 (![] : Fin 0 → Fin S100000x47.rank)
  shapeCasts_S47_S1x47 : S47.ShapeCasts S1x47
  shapeCasts_S5000x47_S5000x47 : S5000x47.ShapeCasts S5000x47
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S5000x47 : S1x47.Broadcasts S5000x47
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x100_S100x64_S5000x64_1_0_0_1_n_n_wf : DotDims.WF S5000x100 S100x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x47_S5000x47_1_0_0_1_n_n_wf : DotDims.WF S5000x64 S64x47 S5000x47 [1] [0] [0] [1] [] []
  gather_S100000x47_S1700000x1_S1700000x47_1_0_n_n_0_1_147_wf : GatherDims.WF S100000x47 S1700000x1 S1700000x47 [1] [0] [] [0] [] 1 ![1, 47]
  scatter_S100000x47_S1700000x1_S1700000x47_1_0_0_1_wf : ScatterDims.WF S100000x47 S1700000x1 S1700000x47 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S100000x100.size a
  hwx0_0 : ∀ i : grid0.Coords, EltTy.bits .f32 = 32 ∨ (Rect.block (s := S100000x100) S5000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x64.size a ≤ S100x64.size a
  hwx0_1 : ∀ i : grid0.Coords, EltTy.bits .f32 = 32 ∨ (Rect.block (s := S100x64) S100x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x47.size a ≤ S64x47.size a
  hwx2_1 : ∀ i : grid2.Coords, EltTy.bits .f32 = 32 ∨ (Rect.block (s := S64x47) S64x47.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x47.size a ≤ S100000x47.size a
  hwx2_2 : ∀ i : grid2.Coords, EltTy.bits .f32 = 32 ∨ (Rect.block (s := S100000x47) S5000x47.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x47.size a ≤ S100000x47.size a
  hwx3_0 : ∀ i : grid3.Coords, EltTy.bits .f32 = 32 ∨ (Rect.block (s := S100000x47) S5000x47.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x47.size a ≤ S1x47.size a
  hwx3_1 : ∀ i : grid3.Coords, EltTy.bits .f32 = 32 ∨ (Rect.block (s := S1x47) S1x47.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x47.size a ≤ S100000x47.size a
  hwx3_2 : ∀ i : grid3.Coords, EltTy.bits .f32 = 32 ∨ (Rect.block (s := S100000x47) S5000x47.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x100_S100x64_S5000x64_1_0_0_1_n_n : DotDims S5000x100 S100x64 S5000x64 where
  lhsContracting := [1]
  rhsContracting := [0]
  lhsNonContracting := [0]
  rhsNonContracting := [1]
  lhsBatch := []
  rhsBatch := []
  wf := dot_S5000x100_S100x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x47_S5000x47_1_0_0_1_n_n : DotDims S5000x64 S64x47 S5000x47 where
  lhsContracting := [1]
  rhsContracting := [0]
  lhsNonContracting := [0]
  rhsNonContracting := [1]
  lhsBatch := []
  rhsBatch := []
  wf := dot_S5000x64_S64x47_S5000x47_1_0_0_1_n_n_wf
def gather_S100000x47_S1700000x1_S1700000x47_1_0_n_n_0_1_147 : GatherDims S100000x47 S1700000x1 S1700000x47 where
  offsetDims := [1]
  collapsedSliceDims := [0]
  operandBatchingDims := []
  startIndicesBatchingDims := []
  startIndexMap := [0]
  indexVectorDim := 1
  sliceSizes := ![1, 47]
  wf := gather_S100000x47_S1700000x1_S1700000x47_1_0_n_n_0_1_147_wf
def scatter_S100000x47_S1700000x1_S1700000x47_1_0_0_1 : ScatterDims S100000x47 S1700000x1 S1700000x47 where
  updateWindowDims := [1]
  insertedWindowDims := [0]
  scatterDimsToOperandDims := [0]
  indexVectorDim := 1
  wf := scatter_S100000x47_S1700000x1_S1700000x47_1_0_0_1_wf

abbrev win0_0 : Pipeline.Window sig grid0 :=
  Pipeline.Window.ofSpec (Memref.whole main_arg0) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S100x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x47.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x47.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x47.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x47.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x47.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x100 : Shape := ⟨2, ![100000, 100]⟩
abbrev S2x1600000 : Shape := ⟨2, ![2, 1600000]⟩
abbrev S100x64 : Shape := ⟨2, ![100, 64]⟩
abbrev S64 : Shape := ⟨1, ![64]⟩
abbrev S64x47 : Shape := ⟨2, ![64, 47]⟩
abbrev S47 : Shape := ⟨1, ![47]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x47 : Shape := ⟨2, ![100000, 47]⟩
abbrev S1700000x47 : Shape := ⟨2, ![1700000, 47]⟩
abbrev S1x47 : Shape := ⟨2, ![1, 47]⟩

abbrev nBuf : Space → Nat
  | .hbm => 89
  | .vmem => 0
  | .smem => 0
  | _ => 0

abbrev bufTy : (tb : Table) → Fin (tcTables nBuf tb) → BufTy
  | .hbm, ⟨0, _⟩ => ⟨S100000x100, .f32⟩
  | .hbm, ⟨1, _⟩ => ⟨S2x1600000, .i32⟩
  | .hbm, ⟨2, _⟩ => ⟨S100x64, .f32⟩
  | .hbm, ⟨3, _⟩ => ⟨S64, .f32⟩
  | .hbm, ⟨4, _⟩ => ⟨S64x47, .f32⟩
  | .hbm, ⟨5, _⟩ => ⟨S47, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x47, .f32⟩
  | .hbm, ⟨70, _⟩ => ⟨S1700000x1, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x47, .f32⟩
  | .hbm, ⟨80, _⟩ => ⟨S1700000x47, .f32⟩
  | .hbm, ⟨81, _⟩ => ⟨S1700000x47, .f32⟩
  | .hbm, ⟨82, _⟩ => ⟨S_, .f32⟩
  | .hbm, ⟨83, _⟩ => ⟨S100000x47, .f32⟩
  | .hbm, ⟨84, _⟩ => ⟨S1700000x1, .i32⟩
  | .hbm, ⟨85, _⟩ => ⟨S100000x47, .f32⟩
  | .hbm, ⟨86, _⟩ => ⟨S1x47, .f32⟩
  | .hbm, ⟨87, _⟩ => ⟨S100000x47, .f32⟩
  | .hbm, ⟨88, _⟩ => ⟨S100000x47, .f32⟩
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x47_0_1 : S1700000x1.BroadcastsInDim S1700000x47 (![0, 1] : Fin 2 → Fin S1700000x47.rank)
  bcast_S_S100000x47 : S_.BroadcastsInDim S100000x47 (![] : Fin 0 → Fin S100000x47.rank)
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x100_S100x64_S100000x64_1_0_0_1_n_n_wf : DotDims.WF S100000x100 S100x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x47_S100000x47_1_0_0_1_n_n_wf : DotDims.WF S100000x64 S64x47 S100000x47 [1] [0] [0] [1] [] []
  gather_S100000x47_S1700000x1_S1700000x47_1_0_n_n_0_1_147_wf : GatherDims.WF S100000x47 S1700000x1 S1700000x47 [1] [0] [] [0] [] 1 ![1, 47]
  scatter_S100000x47_S1700000x1_S1700000x47_1_0_0_1_wf : ScatterDims.WF S100000x47 S1700000x1 S1700000x47 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x100_S100x64_S100000x64_1_0_0_1_n_n : DotDims S100000x100 S100x64 S100000x64 where
  lhsContracting := [1]
  rhsContracting := [0]
  lhsNonContracting := [0]
  rhsNonContracting := [1]
  lhsBatch := []
  rhsBatch := []
  wf := dot_S100000x100_S100x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x47_S100000x47_1_0_0_1_n_n : DotDims S100000x64 S64x47 S100000x47 where
  lhsContracting := [1]
  rhsContracting := [0]
  lhsNonContracting := [0]
  rhsNonContracting := [1]
  lhsBatch := []
  rhsBatch := []
  wf := dot_S100000x64_S64x47_S100000x47_1_0_0_1_n_n_wf
def gather_S100000x47_S1700000x1_S1700000x47_1_0_n_n_0_1_147 : GatherDims S100000x47 S1700000x1 S1700000x47 where
  offsetDims := [1]
  collapsedSliceDims := [0]
  operandBatchingDims := []
  startIndicesBatchingDims := []
  startIndexMap := [0]
  indexVectorDim := 1
  sliceSizes := ![1, 47]
  wf := gather_S100000x47_S1700000x1_S1700000x47_1_0_n_n_0_1_147_wf
def scatter_S100000x47_S1700000x1_S1700000x47_1_0_0_1 : ScatterDims S100000x47 S1700000x1 S1700000x47 where
  updateWindowDims := [1]
  insertedWindowDims := [0]
  scatterDimsToOperandDims := [0]
  indexVectorDim := 1
  wf := scatter_S100000x47_S1700000x1_S1700000x47_1_0_0_1_wf

class Facts : Prop extends Facts₀ where

variable [Facts]
-- ==== Proof.KernelRun.lean ====
/-
  The kernel's run with its result named.

  @main of the idealized kernel is nine segments: three stretches of host operations, the first product region, a
  stretch, the bias-and-rectifier region and the second product region, a stretch, the bias region.  The generated
  frame folds the device's buffer contents through them (`Gen.W0 … Gen.W9`) and launches the segments; its last step
  reads every unscoped buffer of the final state at the last fold `Gen.W9`.  Read there at the result buffer as well
  as at the arguments, the same launch says: every weakly fair execution terminates with the result buffer at
  `Gen.W9` of it, the arguments unchanged.
-/
import proofs.«134402_j7937099563688_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting, with the result buffer at the last
    fold's contents and the argument arrays as launched. -/
theorem run : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Result

end
-- ==== Proof.Network.lean ====
/-
  The network both programs compute, layer by layer, over the extended reals.

  A graph on 100000 nodes is given by 1600000 directed edges `E = (source; destination)`, to which one self loop per
  node is appended: 1700000 edges in all.  With `deg v` the number of edges arriving at `v` and
  `dinv v = deg v ^ (-1/2)` where `deg v > 0` (else `0`), edge `e : s → d` carries the weight
  `w e = dinv s · dinv d`.  One propagation step sends a node matrix `Y` to `agg Y`, whose row `v` is the sum over
  the edges `e : s → v` of `w e · Y s`.  The network is

      out = agg ((relu (agg (X · W₀) + b₀)) · W₁) + b₁ .

  Every layer is written with the host operation the reference applies (its printed text), each as a function of
  exactly the arrays it reads, so that a stretch of either program's host lines is read against it as it stands; the
  kernel replaces the two products, the bias additions and the rectifier by tiled device regions, which are shown to
  compute the same arrays.
-/
import proofs.«134402_j7937099563688_1_alg».proof.ReferenceIdeal
import Idealize.ShloMosaic.PureOps.Ideal

noncomputable section

namespace Cert.Gcn

open Cert.ReferenceIdeal Idealize.ShloMosaic

variable [Cert.ReferenceIdeal.Facts]
open Cert.ReferenceIdeal.Facts₀ Cert.ReferenceIdeal.Facts

/-- A float array at the ideal values, and an integer array. -/
abbrev FA (S : Shape) : Type := FVec Ideal S .f32
abbrev IA (S : Shape) : Type := IVec S 32

/-! ## The graph -/

/-- A row of the edge list (sources or destinations) followed by the nodes `0, 1, …` themselves: the self loops. -/
def endpoints (off : Fin 2 → Nat) (h : S2x1600000.Slices off S1x1600000) (E : IA S2x1600000) : IA S1700000 :=
  concatenate S1700000 0
    [⟨S1600000, shapeCast S1600000 (extractStridedSlice S1x1600000 off E h) shapeCasts_S1x1600000_S1600000⟩,
     ⟨S100000, iotaInDim S100000 32 0⟩] concatenates_S1600000_S100000_S1700000_d0

/-- The source node of every edge. -/
def sources (E : IA S2x1600000) : IA S1700000 := endpoints ![0, 0] slices_S2x1600000_S1x1600000_0_0 E
/-- The destination node of every edge. -/
def targets (E : IA S2x1600000) : IA S1700000 := endpoints ![1, 0] slices_S2x1600000_S1x1600000_1_0 E

/-- Node numbers as a column of row indices: a negative number counts from the end. -/
def rowsOf (I : IA S1700000) : IA S1700000x1 :=
  broadcastInDim S1700000x1 ![0] bcast_S1700000_S1700000x1_0
    (select (cmpi .slt I (broadcastInDim S1700000 ![] bcast_S_S1700000 (constantI S_ 32 0#32)))
      (addi I (broadcastInDim S1700000 ![] bcast_S_S1700000 (constantI S_ 32 100000#32))) I)

/-- The number of edges arriving at each node, from the destinations `d`. -/
def degree (d : IA S1700000) : FA S100000 :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 d)
    (broadcastInDim S1700000 ![] bcast_S_S1700000 (constant (F := Ideal) S_ .f32 0x3F800000#32))

/-- Where the degree is positive. -/
def positive (d : IA S1700000) : IVec S100000 1 :=
  cmpf (F := Ideal) .ogt (degree d) (broadcastInDim S100000 ![] bcast_S_S100000 (constant (F := Ideal) S_ .f32 0x00000000#32))

/-- `deg ^ (-1/2)`. -/
def rsqrtDegree (d : IA S1700000) : FA S100000 := Host.rsqrt (F := Ideal) (degree d)

/-- `r` where the flag `c` is set, the scalar `z` elsewhere. -/
def guarded (c : IVec S100000 1) (r : FA S100000) (z : FVec Ideal S_ .f32) : FA S100000 :=
  select c r (broadcastInDim S100000 ![] bcast_S_S100000 z)

/-- The weight of every edge from the per-node factor `g`: the product of `g` at its two ends. -/
def weightOf (g : FA S100000) (s d : IA S1700000) : FA S1700000 :=
  mulf (F := Ideal) (Host.gather gather_S100000_S1700000x1_S1700000_n_0_n_n_0_1_1 g (rowsOf s))
    (Host.gather gather_S100000_S1700000x1_S1700000_n_0_n_n_0_1_1 g (rowsOf d))

/-- `deg ^ (-1/2)` where the degree is positive, `0` elsewhere. -/
def invSqrtDegree (E : IA S2x1600000) : FA S100000 :=
  guarded (positive (targets E)) (rsqrtDegree (targets E)) (constant (F := Ideal) S_ .f32 0x00000000#32)

/-- The weight of every edge. -/
def edgeWeight (E : IA S2x1600000) : FA S1700000 := weightOf (invSqrtDegree E) (sources E) (targets E)

/-! ## Propagation -/

/-- Rows of `Y` taken at the sources `s`, scaled by the weights `w` and summed into the rows `d`: on 64 features. -/
def weightedSum64 (w : FA S1700000) (s d : IA S1700000) (Y : FA S100000x64) : FA S100000x64 :=
  Host.scatterAdd (F := Ideal) scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 d)
    (mulf (F := Ideal) (broadcastInDim S1700000x64 ![0, 1] bcast_S1700000x1_S1700000x64_0_1
        (broadcastInDim S1700000x1 ![0] bcast_S1700000_S1700000x1_0 w))
      (Host.gather gather_S100000x64_S1700000x1_S1700000x64_1_0_n_n_0_1_164 Y (rowsOf s)))

/-- The same on 47 features. -/
def weightedSum47 (w : FA S1700000) (s d : IA S1700000) (Y : FA S100000x47) : FA S100000x47 :=
  Host.scatterAdd (F := Ideal) scatter_S100000x47_S1700000x1_S1700000x47_1_0_0_1
    (broadcastInDim S100000x47 ![] bcast_S_S100000x47 (constant (F := Ideal) S_ .f32 0x00000000#32))
    (broadcastInDim S1700000x1 ![0] bcast_S1700000_S1700000x1_0 d)
    (mulf (F := Ideal) (broadcastInDim S1700000x47 ![0, 1] bcast_S1700000x1_S1700000x47_0_1
        (broadcastInDim S1700000x1 ![0] bcast_S1700000_S1700000x1_0 w))
      (Host.gather gather_S100000x47_S1700000x1_S1700000x47_1_0_n_n_0_1_147 Y (rowsOf s)))

/-- One propagation step on 64 features: row `v` of the result is the weighted sum of the rows of `Y` at the sources
    of the edges arriving at `v`. -/
def propagate64 (E : IA S2x1600000) (Y : FA S100000x64) : FA S100000x64 :=
  weightedSum64 (edgeWeight E) (sources E) (targets E) Y

/-- The same step on 47 features. -/
def propagate47 (E : IA S2x1600000) (Y : FA S100000x47) : FA S100000x47 :=
  weightedSum47 (edgeWeight E) (sources E) (targets E) Y

/-! ## The dense layers -/

/-- The first feature transform `X · W₀`. -/
def transform0 (X : FA S100000x100) (W : FA S100x64) : FA S100000x64 :=
  Host.dotGeneral (F := Ideal) dot_S100000x100_S100x64_S100000x64_1_0_0_1_n_n none X W
/-- The second feature transform `H · W₁`. -/
def transform1 (H : FA S100000x64) (W : FA S64x47) : FA S100000x47 :=
  Host.dotGeneral (F := Ideal) dot_S100000x64_S64x47_S100000x47_1_0_0_1_n_n none H W

/-- A bias added to every row, on 64 features. -/
def bias64 (Y : FA S100000x64) (b : FA S64) : FA S100000x64 :=
  addf (F := Ideal) Y (broadcastInDim S100000x64 ![0, 1] bcast_S1x64_S100000x64_0_1 (broadcastInDim S1x64 ![1] bcast_S64_S1x64_1 b))
/-- The rectifier: the maximum with the scalar `z` (zero). -/
def relu64 (Y : FA S100000x64) (z : FVec Ideal S_ .f32) : FA S100000x64 :=
  maximumf (F := Ideal) Y (broadcastInDim S100000x64 ![] bcast_S_S100000x64 z)
/-- A bias added to every row, then the rectifier. -/
def biasRelu64 (Y : FA S100000x64) (b : FA S64) : FA S100000x64 :=
  relu64 (bias64 Y b) (constant (F := Ideal) S_ .f32 0x00000000#32)
/-- A bias added to every row, on 47 features. -/
def bias47 (Y : FA S100000x47) (b : FA S47) : FA S100000x47 :=
  addf (F := Ideal) Y (broadcastInDim S100000x47 ![0, 1] bcast_S1x47_S100000x47_0_1 (broadcastInDim S1x47 ![1] bcast_S47_S1x47_1 b))

/-! ## The network -/

/-- The hidden layer `relu (agg (X · W₀) + b₀)`. -/
def hidden (X : FA S100000x100) (E : IA S2x1600000) (W0 : FA S100x64) (b0 : FA S64) : FA S100000x64 :=
  biasRelu64 (propagate64 E (transform0 X W0)) b0

/-- The network's output `agg (hidden · W₁) + b₁`. -/
def output (X : FA S100000x100) (E : IA S2x1600000) (W0 : FA S100x64) (b0 : FA S64)
    (W1 : FA S64x47) (b1 : FA S47) : FA S100000x47 :=
  bias47 (propagate47 E (transform1 (hidden X E W0 b0) W1)) b1

end Cert.Gcn

end
-- ==== Proof.LibHostKept.lean ====
/-
  A buffer that no operation of a stretch of host lines writes keeps its contents.

  For a LITERAL list `ops` of host operations (the builders `nullary`, `unary`, `binary`, `ternary`, `quaternary`,
  `reshape`, and the outlined functions' typed forms of them) and a reference `b` that none of them writes,
  `after ops v b = v b` for any contents `v`.  The tactic `host_kept ops` closes such a goal: it walks the list once,
  reads each operation's written buffer, and decides the reference different from it.  Useful wherever a value is
  carried across a stretch that neither reads nor writes it — a program of several device regions among host lines,
  or a long host program read stretch by stretch.
-/
import Idealize.ShloMosaic.Lib.StableHlo.Run

namespace Cert.Kept

/-- Closes `after ops v b = v b` for a literal list `ops` (given by name) none of whose operations writes `b`. -/
macro "host_kept" l:ident : tactic => `(tactic| (
  refine Idealize.ShloMosaic.StableHlo.after_of_forall_not_mem _ _ (List.forall_iff_forall_mem.mp ?_)
  simp only [$l:ident, List.Forall, Idealize.ShloMosaic.StableHlo.nullary_writes, Idealize.ShloMosaic.StableHlo.unary_writes,
    Idealize.ShloMosaic.StableHlo.binary_writes, Idealize.ShloMosaic.StableHlo.ternary_writes,
    Idealize.ShloMosaic.StableHlo.quaternary_writes, Idealize.ShloMosaic.StableHlo.reshape_writes, Finset.mem_singleton]
  repeat' apply And.intro
  all_goals exact Idealize.ShloMosaic.StableHlo.devRef_ne_of_ne (by decide)))

end Cert.Kept
-- ==== Proof.Stretch0.lean ====
/-
  The kernel's first stretch of host lines, read back over ANY buffer contents `v`.

  They are the reference's own first lines applied to the edge list: its two rows with the self loops appended, the
  degrees of the destinations, where they are positive, and their inverse square roots.  No argument is written.
-/
import proofs.«134402_j7937099563688_1_alg».proof.Proof.Gen.KernelIdeal.Launch
import proofs.«134402_j7937099563688_1_alg».proof.Proof.Network
import proofs.«134402_j7937099563688_1_alg».proof.Proof.LibHostKept
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.Stretch0

open Cert.KernelIdeal Cert.KernelIdeal.Gen Idealize.ShloMosaic Idealize.ShloMosaic.TcCoe Idealize.SL.Sem Idealize.ShloMosaic.StableHlo
open Cert.Kept

variable [Cert.ReferenceIdeal.Facts]
variable (v : Valuation τ sig (Elt Ideal))

set_option maxHeartbeats 4000000 in
theorem sources_eq : after hostOps0 v (Proc.devRef .tc main_v3) = Cert.Gcn.sources (v (Proc.devRef .tc main_arg1)) := by
  after_results
  rfl
set_option maxHeartbeats 4000000 in
theorem targets_eq : after hostOps0 v (Proc.devRef .tc main_v6) = Cert.Gcn.targets (v (Proc.devRef .tc main_arg1)) := by
  after_results
  rfl
set_option maxHeartbeats 4000000 in
theorem positive_eq : after hostOps0 v (Proc.devRef .tc main_v12) = Cert.Gcn.positive (Cert.Gcn.targets (v (Proc.devRef .tc main_arg1))) := by
  after_results
  rfl
set_option maxHeartbeats 4000000 in
theorem rsqrt_eq : after hostOps0 v (Proc.devRef .tc main_v13) = Cert.Gcn.rsqrtDegree (Cert.Gcn.targets (v (Proc.devRef .tc main_arg1))) := by
  after_results
  rfl
set_option maxHeartbeats 4000000 in
theorem zero_eq : after hostOps0 v (Proc.devRef .tc main_cst_2) = constant (F := Ideal) S_ .f32 0x00000000#32 := by
  after_results
theorem arg0_kept : after hostOps0 v (Proc.devRef .tc main_arg0) = v (Proc.devRef .tc main_arg0) := by host_kept hostOps0
theorem arg2_kept : after hostOps0 v (Proc.devRef .tc main_arg2) = v (Proc.devRef .tc main_arg2) := by host_kept hostOps0
theorem arg3_kept : after hostOps0 v (Proc.devRef .tc main_arg3) = v (Proc.devRef .tc main_arg3) := by host_kept hostOps0
theorem arg4_kept : after hostOps0 v (Proc.devRef .tc main_arg4) = v (Proc.devRef .tc main_arg4) := by host_kept hostOps0
theorem arg5_kept : after hostOps0 v (Proc.devRef .tc main_arg5) = v (Proc.devRef .tc main_arg5) := by host_kept hostOps0

end Cert.KernelIdeal.Stretch0

end
-- ==== Proof.Stretch0a.lean ====
/-
  The kernel's second stretch of host lines — the outlined selection — read back over ANY buffer contents `v`:
  the inverse square root where the flag is set, the scalar elsewhere.  It writes neither the edge ends nor an argument.
-/
import proofs.«134402_j7937099563688_1_alg».proof.Proof.Gen.KernelIdeal.Launch
import proofs.«134402_j7937099563688_1_alg».proof.Proof.Network
import proofs.«134402_j7937099563688_1_alg».proof.Proof.LibHostKept
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.Stretch0a

open Cert.KernelIdeal Cert.KernelIdeal.Gen Idealize.ShloMosaic Idealize.ShloMosaic.TcCoe Idealize.SL.Sem Idealize.ShloMosaic.StableHlo
open Cert.Kept

variable [Cert.ReferenceIdeal.Facts]
variable (v : Valuation τ sig (Elt Ideal))

theorem guarded_eq : after hostOps0_1 v (Proc.devRef .tc main_v14)
    = Cert.Gcn.guarded (v (Proc.devRef .tc main_v12)) (v (Proc.devRef .tc main_v13)) (v (Proc.devRef .tc main_cst_2)) := by
  after_results
  rfl
theorem sources_kept : after hostOps0_1 v (Proc.devRef .tc main_v3) = v (Proc.devRef .tc main_v3) := by host_kept hostOps0_1
theorem targets_kept : after hostOps0_1 v (Proc.devRef .tc main_v6) = v (Proc.devRef .tc main_v6) := by host_kept hostOps0_1
theorem arg0_kept : after hostOps0_1 v (Proc.devRef .tc main_arg0) = v (Proc.devRef .tc main_arg0) := by host_kept hostOps0_1
theorem arg2_kept : after hostOps0_1 v (Proc.devRef .tc main_arg2) = v (Proc.devRef .tc main_arg2) := by host_kept hostOps0_1
theorem arg3_kept : after hostOps0_1 v (Proc.devRef .tc main_arg3) = v (Proc.devRef .tc main_arg3) := by host_kept hostOps0_1
theorem arg4_kept : after hostOps0_1 v (Proc.devRef .tc main_arg4) = v (Proc.devRef .tc main_arg4) := by host_kept hostOps0_1
theorem arg5_kept : after hostOps0_1 v (Proc.devRef .tc main_arg5) = v (Proc.devRef .tc main_arg5) := by host_kept hostOps0_1

end Cert.KernelIdeal.Stretch0a

end
-- ==== Proof.Stretch0b.lean ====
/-
  The kernel's third stretch of host lines, read back over ANY buffer contents `v`: the weight of every edge, the
  product of the per-node factor at its two ends.  It writes neither the edge ends nor an argument.
-/
import proofs.«134402_j7937099563688_1_alg».proof.Proof.Gen.KernelIdeal.Launch
import proofs.«134402_j7937099563688_1_alg».proof.Proof.Network
import proofs.«134402_j7937099563688_1_alg».proof.Proof.LibHostKept
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.Stretch0b

open Cert.KernelIdeal Cert.KernelIdeal.Gen Idealize.ShloMosaic Idealize.ShloMosaic.TcCoe Idealize.SL.Sem Idealize.ShloMosaic.StableHlo
open Cert.Kept

variable [Cert.ReferenceIdeal.Facts]
variable (v : Valuation τ sig (Elt Ideal))

set_option maxHeartbeats 4000000 in
theorem weight_eq : after hostOps0_2 v (Proc.devRef .tc main_v29)
    = Cert.Gcn.weightOf (v (Proc.devRef .tc main_v14)) (v (Proc.devRef .tc main_v3)) (v (Proc.devRef .tc main_v6)) := by
  after_results_simp
  rfl
theorem sources_kept : after hostOps0_2 v (Proc.devRef .tc main_v3) = v (Proc.devRef .tc main_v3) := by host_kept hostOps0_2
theorem targets_kept : after hostOps0_2 v (Proc.devRef .tc main_v6) = v (Proc.devRef .tc main_v6) := by host_kept hostOps0_2
theorem arg0_kept : after hostOps0_2 v (Proc.devRef .tc main_arg0) = v (Proc.devRef .tc main_arg0) := by host_kept hostOps0_2
theorem arg2_kept : after hostOps0_2 v (Proc.devRef .tc main_arg2) = v (Proc.devRef .tc main_arg2) := by host_kept hostOps0_2
theorem arg3_kept : after hostOps0_2 v (Proc.devRef .tc main_arg3) = v (Proc.devRef .tc main_arg3) := by host_kept hostOps0_2
theorem arg4_kept : after hostOps0_2 v (Proc.devRef .tc main_arg4) = v (Proc.devRef .tc main_arg4) := by host_kept hostOps0_2
theorem arg5_kept : after hostOps0_2 v (Proc.devRef .tc main_arg5) = v (Proc.devRef .tc main_arg5) := by host_kept hostOps0_2

end Cert.KernelIdeal.Stretch0b

end
-- ==== Proof.Stretch1.lean ====
/-
  The kernel's host lines between its first region and its second, read back over ANY buffer contents `v`.

  They are the reference's own lines for one propagation step on 64 features — gather the rows at the sources, scale
  by the edge weights, sum into the destinations — and one re-layout of the first bias as a one-row matrix.
-/
import proofs.«134402_j7937099563688_1_alg».proof.Proof.Gen.KernelIdeal.Launch
import proofs.«134402_j7937099563688_1_alg».proof.Proof.Network
import proofs.«134402_j7937099563688_1_alg».proof.Proof.LibHostKept
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.Stretch1

open Cert.KernelIdeal Cert.KernelIdeal.Gen Idealize.ShloMosaic Idealize.ShloMosaic.TcCoe Idealize.SL.Sem Idealize.ShloMosaic.StableHlo
open Cert.Kept

variable [Cert.ReferenceIdeal.Facts]
variable (v : Valuation τ sig (Elt Ideal))

set_option maxHeartbeats 4000000 in
theorem weightedSum_eq : after hostOps1 v (Proc.devRef .tc main_v43)
    = Cert.Gcn.weightedSum64 (v (Proc.devRef .tc main_v29)) (v (Proc.devRef .tc main_v3)) (v (Proc.devRef .tc main_v6)) (v (Proc.devRef .tc main_v30)) := by
  after_results_simp
  rfl
/-- The bias as a one-row matrix: its entry `(0, q)` is the bias's entry `q`. -/
theorem biasRow_eq (q : Fin 64) :
    after hostOps1 v (Proc.devRef .tc main_v44) (ValueIdx.ix2 (0 : Fin 1) q) = v (Proc.devRef .tc main_arg3) (ValueIdx.ix1 q) := by
  after_results
  refine (shapeCast_addUnit_apply ![64] (v (Proc.devRef .tc main_arg3)) shapeCasts_S64_S1x64 (ValueIdx.ix2 (0 : Fin 1) q)).trans ?_
  refine congrArg (v (Proc.devRef .tc main_arg3)) ?_
  funext a
  match a with
  | ⟨0, _⟩ => rfl
theorem sources_kept : after hostOps1 v (Proc.devRef .tc main_v3) = v (Proc.devRef .tc main_v3) := by host_kept hostOps1
theorem targets_kept : after hostOps1 v (Proc.devRef .tc main_v6) = v (Proc.devRef .tc main_v6) := by host_kept hostOps1
theorem weight_kept : after hostOps1 v (Proc.devRef .tc main_v29) = v (Proc.devRef .tc main_v29) := by host_kept hostOps1
theorem arg4_kept : after hostOps1 v (Proc.devRef .tc main_arg4) = v (Proc.devRef .tc main_arg4) := by host_kept hostOps1
theorem arg5_kept : after hostOps1 v (Proc.devRef .tc main_arg5) = v (Proc.devRef .tc main_arg5) := by host_kept hostOps1

end Cert.KernelIdeal.Stretch1

end
-- ==== Proof.Stretch3.lean ====
/-
  The kernel's host lines between its third region and its last, read back over ANY buffer contents `v`: the
  reference's own lines for one propagation step on 47 features, and one re-layout of the second bias as a one-row
  matrix.
-/
import proofs.«134402_j7937099563688_1_alg».proof.Proof.Gen.KernelIdeal.Launch
import proofs.«134402_j7937099563688_1_alg».proof.Proof.Network
import proofs.«134402_j7937099563688_1_alg».proof.Proof.LibHostKept
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.Stretch3

open Cert.KernelIdeal Cert.KernelIdeal.Gen Idealize.ShloMosaic Idealize.ShloMosaic.TcCoe Idealize.SL.Sem Idealize.ShloMosaic.StableHlo
open Cert.Kept

variable [Cert.ReferenceIdeal.Facts]
variable (v : Valuation τ sig (Elt Ideal))

set_option maxHeartbeats 4000000 in
theorem weightedSum_eq : after hostOps3 v (Proc.devRef .tc main_v59)
    = Cert.Gcn.weightedSum47 (v (Proc.devRef .tc main_v29)) (v (Proc.devRef .tc main_v3)) (v (Proc.devRef .tc main_v6)) (v (Proc.devRef .tc main_v46)) := by
  after_results_simp
  rfl
/-- The bias as a one-row matrix: its entry `(0, q)` is the bias's entry `q`. -/
theorem biasRow_eq (q : Fin 47) :
    after hostOps3 v (Proc.devRef .tc main_v60) (ValueIdx.ix2 (0 : Fin 1) q) = v (Proc.devRef .tc main_arg5) (ValueIdx.ix1 q) := by
  after_results
  refine (shapeCast_addUnit_apply ![47] (v (Proc.devRef .tc main_arg5)) shapeCasts_S47_S1x47 (ValueIdx.ix2 (0 : Fin 1) q)).trans ?_
  refine congrArg (v (Proc.devRef .tc main_arg5)) ?_
  funext a
  match a with
  | ⟨0, _⟩ => rfl

end Cert.KernelIdeal.Stretch3

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.Tiles.lean ====
/-
  What each device region computes on one tile, read at an entry, at the ideal values.

  A tile is 5000 consecutive rows of a node matrix.  On a tile, the product regions multiply its rows by the whole
  weight matrix — the change of float format on the operands is the identity at the ideal values, and the product into
  a zero accumulator is the plain sum over the shared coordinate —, and the bias regions add the one-row bias to every
  row, the first of them followed by the maximum with zero.
-/
import proofs.«134402_j7937099563688_1_alg».proof.Proof.Gen.KernelIdeal.Skeleton
import proofs.«134402_j7937099563688_1_alg».proof.Proof.LibPlainProduct
import proofs.«134402_j7937099563688_1_alg».proof.Proof.LibRowsProduct
import Idealize.ShloMosaic.Lib.Pipeline.Value
import Idealize.ShloMosaic.Lib.ValueIdx
import Idealize.ShloMosaic.PureOps.Ideal.Laws

noncomputable section

namespace Cert.KernelIdeal.Tiles

open Cert.KernelIdeal Cert.KernelIdeal.Gen Idealize.ShloMosaic Idealize.ShloMosaic.ValueIdx

/-- The first product on a tile: entry `(p, q)` is the sum over the 100 input features. -/
theorem product0_apply (x : FVec Ideal S5000x100 .f32) (w : FVec Ideal S100x64 .f32) (p : Fin 5000) (q : Fin 64) :
    k0_pay1 (F := Ideal) x w (ix2 p q) = ∑ k : Fin 100, x (ix2 p k) * w (ix2 k q) := by
  unfold k0_pay1
  refine (Cert.PlainProduct.matmul_nn_apply _ none _ _ p q).trans ?_
  rfl

/-- The second product on a tile: entry `(p, q)` is the sum over the 64 hidden features. -/
theorem product1_apply (x : FVec Ideal S5000x64 .f32) (w : FVec Ideal S64x47 .f32) (p : Fin 5000) (q : Fin 47) :
    k2_pay1 (F := Ideal) x w (ix2 p q) = ∑ k : Fin 64, x (ix2 p k) * w (ix2 k q) := by
  unfold k2_pay1
  refine (Cert.PlainProduct.matmul_nn_apply _ none _ _ p q).trans ?_
  refine Finset.sum_congr rfl fun k _ => ?_
  exact congrArg (· * w (ix2 k q)) (congrFun (shapeCast_self x shapeCasts_S5000x64_S5000x64) (ix2 p k))

/-- Bias and rectifier on a tile: entry `(p, q)` is `max (y (p, q) + r (0, q)) 0`. -/
theorem biasRelu_apply (y : FVec Ideal S5000x64 .f32) (r : FVec Ideal S1x64 .f32) (p : Fin 5000) (q : Fin 64) :
    k1_pay1 (F := Ideal) y r (ix2 p q) = max (y (ix2 p q) + r (ix2 (0 : Fin 1) q)) (Ideal.ofBits .f32 0x00000000#32) := by
  unfold k1_pay1
  refine (maximumf_apply _ _ (ix2 p q)).trans ?_
  refine congrArg₂ max ((addf_apply _ _ (ix2 p q)).trans (congrArg₂ (· + ·) ?_ ?_)) rfl
  · exact congrFun (shapeCast_self y shapeCasts_S5000x64_S5000x64) (ix2 p q)
  · refine (Cert.RowsProduct.broadcastTo_1n_an_apply _ broadcasts_S1x64_S5000x64 p q).trans ?_
    exact congrFun (shapeCast_self r shapeCasts_S1x64_S1x64) (ix2 (0 : Fin 1) q)

/-- The last bias on a tile: entry `(p, q)` is `y (p, q) + r (0, q)`. -/
theorem bias_apply (y : FVec Ideal S5000x47 .f32) (r : FVec Ideal S1x47 .f32) (p : Fin 5000) (q : Fin 47) :
    k3_pay1 (F := Ideal) y r (ix2 p q) = y (ix2 p q) + r (ix2 (0 : Fin 1) q) := by
  unfold k3_pay1
  refine (addf_apply _ _ (ix2 p q)).trans (congrArg₂ (· + ·) ?_ ?_)
  · exact congrFun (shapeCast_self y shapeCasts_S5000x47_S5000x47) (ix2 p q)
  · refine (Cert.RowsProduct.broadcastTo_1n_an_apply _ broadcasts_S1x47_S5000x47 p q).trans ?_
    exact congrFun (shapeCast_self r shapeCasts_S1x47_S1x47) (ix2 (0 : Fin 1) q)

end Cert.KernelIdeal.Tiles

end
-- ==== Proof.LibHostProduct.lean ====
/-
  The host's matrix product and two of its broadcasts, read at an index, at the ideal values.

  For `A : [m, k]` and `B : [k, n]`, the host's product contracting the second axis of `A` with the first of `B` has at
  `(a, b)` the sum over `c` of `A (a, c) · B (c, b)`: it has no accumulator, so this is the whole entry.  An `[a, 1]`
  column laid along the columns of an `[a, b]` array has at `(p, c)` the column's entry `p`, and a vector of length `n`
  laid as a `[1, n]` row has at `(0, q)` its entry `q`.
-/
import Idealize.ShloMosaic.Lib.Pipeline.Value
import Idealize.ShloMosaic.Lib.ValueIdx
import Idealize.ShloMosaic.PureOps.Ideal.Laws

noncomputable section

namespace Cert.HostProduct

open Idealize.ShloMosaic Idealize.ShloMosaic.ValueIdx

/-- The host's `A · B`, read at `(a, b)`: the sum over the shared coordinate of the products. -/
theorem dotGeneral_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

variable {α : Type}

/-- An `[a, 1]` column laid along the columns of an `[a, b]` array: entry `(p, c)` is the column's entry `p`. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) ?_
  intro ax
  match ax with
  | ⟨0, _⟩ =>
    show p.val = if a = 1 then 0 else p.val
    split
    · have := p.isLt; omega
    · rfl
  | ⟨1, _⟩ =>
    show (0 : ℕ) = if (1 : ℕ) = 1 then 0 else _
    simp

/-- A vector laid as a one-row matrix by the host: entry `(0, q)` is the vector's entry `q`. -/
theorem broadcastInDim_row_apply {n : ℕ} (h : (⟨1, ![n]⟩ : Shape).BroadcastsInDim ⟨2, ![1, n]⟩ ![1])
    (v : (⟨1, ![n]⟩ : Shape).Idx → α) (q : Fin n) :
    broadcastInDim ⟨2, ![1, n]⟩ ![1] h v (ix2 (0 : Fin 1) q) = v (ix1 q) := by
  refine broadcastInDim_apply ![1] h v (ix2 (0 : Fin 1) q) (ix1 q) ?_
  intro ax
  match ax with
  | ⟨0, _⟩ =>
    show q.val = if n = 1 then 0 else q.val
    split
    · have := q.isLt; omega
    · rfl

end Cert.HostProduct

end
-- ==== Proof.LibHostBroadcast.lean ====
/-
  The host's broadcasts of a bias, of a column and of a scalar, read at an index.

  A vector of length `n` placed as a one-row matrix and repeated down `a` rows has at `(p, q)` its entry `q`.  A vector of
  length `a` placed as a one-column matrix and repeated across `b` columns has at `(p, q)` its entry `p`.  A scalar
  repeated over any shape has everywhere its one value.
-/
import Idealize.ShloMosaic.Lib.Pipeline.Value
import Idealize.ShloMosaic.Lib.ValueIdx

noncomputable section

namespace Cert.HostBroadcast

open Idealize.ShloMosaic Idealize.ShloMosaic.ValueIdx

variable {α : Type}

/-- A vector as a `[1, n]` row repeated over `[a, n]`: at `(p, q)` its entry `q`. -/
theorem row_apply {a n : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 v) (ix2 p q) = v (ix1 q) := by
  rw [broadcastInDim_apply ![0, 1] h2 _ (ix2 p q) (ix2 (0 : Fin 1) q) (fun ax => by
    match ax with
    | ⟨0, _⟩ => show (0 : ℕ) = if (1 : ℕ) = 1 then 0 else p.val; rw [if_pos rfl]
    | ⟨1, _⟩ =>
      show q.val = if n = 1 then 0 else q.val
      split
      · have := q.isLt; omega
      · rfl)]
  exact broadcastInDim_apply ![1] h1 v (ix2 (0 : Fin 1) q) (ix1 q) (fun ax => by
    match ax with
    | ⟨0, _⟩ =>
      show q.val = if n = 1 then 0 else q.val
      split
      · have := q.isLt; omega
      · rfl)

/-- A vector as an `[a, 1]` column repeated over `[a, b]`: at `(p, q)` its entry `p`. -/
theorem col_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [broadcastInDim_apply ![0, 1] h2 _ (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])]
  exact broadcastInDim_apply ![0] h1 v (ix2 p (0 : Fin 1)) (ix1 p) (fun ax => by
    match ax with
    | ⟨0, _⟩ =>
      show p.val = if a = 1 then 0 else p.val
      split
      · have := p.isLt; omega
      · rfl)

/-- The same column form one step at a time: an `[a]` vector as an `[a, 1]` column, at `(p, 0)`. -/
theorem col_one_apply {a : ℕ} (v : (⟨1, ![a]⟩ : Shape).Idx → α)
    (h1 : (⟨1, ![a]⟩ : Shape).BroadcastsInDim ⟨2, ![a, 1]⟩ ![0]) (p : Fin a) :
    broadcastInDim ⟨2, ![a, 1]⟩ ![0] h1 v (ix2 p (0 : Fin 1)) = v (ix1 p) :=
  broadcastInDim_apply ![0] h1 v (ix2 p (0 : Fin 1)) (ix1 p) (fun ax => by
    match ax with
    | ⟨0, _⟩ =>
      show p.val = if a = 1 then 0 else p.val
      split
      · have := p.isLt; omega
      · rfl)

/-- An `[a, 1]` column repeated over `[a, b]`, at `(p, q)`: the column's entry `(p, 0)`. -/
theorem col_spread_apply {a b : ℕ} (v : (⟨2, ![a, 1]⟩ : Shape).Idx → α)
    (h2 : (⟨2, ![a, 1]⟩ : Shape).BroadcastsInDim ⟨2, ![a, b]⟩ ![0, 1]) (p : Fin a) (q : Fin b) :
    broadcastInDim ⟨2, ![a, b]⟩ ![0, 1] h2 v (ix2 p q) = v (ix2 p (0 : Fin 1)) :=
  broadcastInDim_apply ![0, 1] h2 v (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])

/-- A scalar repeated over any shape: everywhere its one value. -/
theorem scalar_apply {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 (fun ax => ax.elim0)

end Cert.HostBroadcast

end
-- ==== Proof.NetworkAt.lean ====
/-
  The network's dense layers read at an entry, at the ideal values: a feature transform is the plain sum over the
  shared coordinate, a bias is added to every row, the rectifier is the maximum with zero.
-/
import proofs.«134402_j7937099563688_1_alg».proof.Proof.Network
import proofs.«134402_j7937099563688_1_alg».proof.Proof.LibHostProduct
import proofs.«134402_j7937099563688_1_alg».proof.Proof.LibHostBroadcast
import Idealize.ShloMosaic.Lib.ValueIdx

noncomputable section

namespace Cert.Gcn

open Cert.ReferenceIdeal Idealize.ShloMosaic Idealize.ShloMosaic.ValueIdx

variable [Cert.ReferenceIdeal.Facts]
open Cert.ReferenceIdeal.Facts₀ Cert.ReferenceIdeal.Facts

/-- `(X · W₀) (p, q) = ∑ k, X (p, k) · W₀ (k, q)`. -/
theorem transform0_apply (X : FA S100000x100) (W : FA S100x64) (p : Fin 100000) (q : Fin 64) :
    transform0 X W (ix2 p q) = ∑ k : Fin 100, X (ix2 p k) * W (ix2 k q) := by
  unfold transform0
  exact Cert.HostProduct.dotGeneral_nn_apply _ none X W p q

/-- `(H · W₁) (p, q) = ∑ k, H (p, k) · W₁ (k, q)`. -/
theorem transform1_apply (H : FA S100000x64) (W : FA S64x47) (p : Fin 100000) (q : Fin 47) :
    transform1 H W (ix2 p q) = ∑ k : Fin 64, H (ix2 p k) * W (ix2 k q) := by
  unfold transform1
  exact Cert.HostProduct.dotGeneral_nn_apply _ none H W p q

/-- `relu (Y + b) (p, q) = max (Y (p, q) + b q) 0`. -/
theorem biasRelu64_apply (Y : FA S100000x64) (b : FA S64) (p : Fin 100000) (q : Fin 64) :
    biasRelu64 Y b (ix2 p q) = max (Y (ix2 p q) + b (ix1 q)) (Ideal.ofBits .f32 0x00000000#32) := by
  unfold biasRelu64 relu64 bias64
  refine (maximumf_apply _ _ (ix2 p q)).trans ?_
  refine congrArg₂ max ((addf_apply _ _ (ix2 p q)).trans (congrArg (Y (ix2 p q) + ·) ?_)) ?_
  · exact Cert.HostBroadcast.row_apply b bcast_S64_S1x64_1 bcast_S1x64_S100000x64_0_1 p q
  · exact Cert.HostBroadcast.scalar_apply _ _ bcast_S_S100000x64 (ix2 p q)

/-- `(Y + b) (p, q) = Y (p, q) + b q`. -/
theorem bias47_apply (Y : FA S100000x47) (b : FA S47) (p : Fin 100000) (q : Fin 47) :
    bias47 Y b (ix2 p q) = Y (ix2 p q) + b (ix1 q) := by
  unfold bias47
  refine (addf_apply _ _ (ix2 p q)).trans (congrArg (Y (ix2 p q) + ·) ?_)
  exact Cert.HostBroadcast.row_apply b bcast_S47_S1x47_1 bcast_S1x47_S100000x47_0_1 p q

end Cert.Gcn

end
-- ==== Proof.Region0.lean ====
/-
  The first product region: `X · W₀`, tile by tile, is the whole product.

  The region walks 20 tiles of 5000 rows.  At tile `t` it is given rows `5000 t … 5000 t + 4999` of the left operand and
  the whole weight matrix, and writes the same rows of the result; the 20 tiles are disjoint and fill the 100000 rows.
  On a tile the body's product is the plain sum over the shared coordinate, which is that row of the whole product:
  the result array, after the region, is the whole product of the arrays the region found.
-/
import proofs.«134402_j7937099563688_1_alg».proof.Proof.Gen.KernelIdeal.Frame
import proofs.«134402_j7937099563688_1_alg».proof.Proof.Tiles
import proofs.«134402_j7937099563688_1_alg».proof.Proof.NetworkAt
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat Cfg Window)

variable [Cert.ReferenceIdeal.Facts]
variable (V : (c : Dev nD) → (b : Ref sig .tc) → Buf (Elt Ideal) ((c : Thread nD τ).loc b))

theorem origin : (![0, 0] : Fin 2 → Nat) = fun _ => 0 := funext fun a => by fin_cases a <;> rfl

/-- Which block of its array each window holds at tile `t`, decided over the grid: row block `t` of the left operand and of
    the result, the one block of the weights. -/
theorem tiles : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of tile `t`, as a row of the whole array. -/
def row (t : Fin cfg0.N) (p : Fin 5000) : Fin 100000 :=
  ⟨t.val * 5000 + p.val, by have := t.isLt; have hN : cfg0.N = 20 := N_0; have := p.isLt; omega⟩

/-- The left operand's tile is its rows `5000 t + p`. -/
theorem tileX (c : Dev nD) (t : Fin cfg0.N) (p : Fin 5000) (k : Fin 100) :
    iblk0 V c 0 t (ix2 p k) = V c main_arg0 (ix2 (row t p) k) := by
  obtain ⟨e0, e1, -⟩ := tiles t
  show V c main_arg0 (((cfg0.win 0).blk t).view.emb (ix2 p k)) = _
  refine congrArg (V c main_arg0) ?_
  funext a; apply Fin.ext
  match a with
  | ⟨0, _⟩ => show win0_0.index t (0 : Fin 2) * 5000 + 1 * p.val = t.val * 5000 + p.val; rw [e0]; omega
  | ⟨1, _⟩ => show win0_0.index t (1 : Fin 2) * 100 + 1 * k.val = k.val; rw [e1]; omega

/-- The weights' one block is the whole matrix. -/
theorem tileW (c : Dev nD) (t : Fin cfg0.N) (k : Fin 100) (q : Fin 64) :
    iblk0 V c 1 t (ix2 k q) = V c main_arg2 (ix2 k q) := by
  obtain ⟨-, -, e2, e3, -⟩ := tiles t
  show V c main_arg2 (((cfg0.win 1).blk t).view.emb (ix2 k q)) = _
  refine congrArg (V c main_arg2) ?_
  funext a; apply Fin.ext
  match a with
  | ⟨0, _⟩ => show win0_1.index t (0 : Fin 2) * 100 + 1 * k.val = k.val; rw [e2]; omega
  | ⟨1, _⟩ => show win0_1.index t (1 : Fin 2) * 64 + 1 * q.val = q.val; rw [e3]; omega

/-- Entry `(p, q)` of the result's tile sits at row `5000 t + p` of the result array. -/
theorem tileOut (t : Fin cfg0.N) (p : Fin 5000) (q : Fin 64) :
    ((cfg0.win 2).blk t).view.emb (ix2 p q) = ix2 (row t p) q := by
  obtain ⟨-, -, -, -, e4, e5⟩ := tiles t
  funext a; apply Fin.ext
  match a with
  | ⟨0, _⟩ => show win0_2.index t (0 : Fin 2) * 5000 + 1 * p.val = t.val * 5000 + p.val; rw [e4]; omega
  | ⟨1, _⟩ => show win0_2.index t (1 : Fin 2) * 64 + 1 * q.val = q.val; rw [e5]; omega

/-- What tile `t` writes back is tile `t` of the whole product of the arrays as the region finds them. -/
theorem written (c : Dev nD) (t : Fin cfg0.N) :
    (dat0 V c).flushed 2 t
      = ((cfg0.win 2).blk t).view.read (Elt Ideal) (Cert.Gcn.transform0 (V c main_arg0) (V c main_arg2)) := by
  show (cfg0.win 2).cut (grid0.coords t) ((dat0 V c).after 2 t) = _
  rw [after0_2]
  unfold out0_2
  rw [View.canon_unit_zero origin]
  simp only [View.ld_unit_zero (S := S5000x100) origin, View.ld_unit_zero (S := S100x64) origin]
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (ix2 p q)
    = Cert.Gcn.transform0 (V c main_arg0) (V c main_arg2) (((cfg0.win 2).blk t).view.emb (ix2 p q))
  rw [tileOut t p q]
  refine (Tiles.product0_apply (iblk0 V c 0 t) (iblk0 V c 1 t) p q).trans ?_
  refine ((Cert.Gcn.transform0_apply _ _ (row t p) q).trans ?_).symm
  refine Finset.sum_congr rfl fun k _ => ?_
  rw [tileX V c t p k, tileW V c t k q]

/-- An index of the result array is in tile `t` iff each coordinate is in the tile's range on its axis. -/
theorem mem_tile (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Every entry of the result array is in the tile of its row: tile `row / 5000`. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, e4, e5⟩ := tiles t
  refine ⟨t, flush0_2 t, ?_⟩
  rw [mem_tile]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 64 ≤ (i 1).val ∧ (i 1).val < win0_2.index t (1 : Fin 2) * 64 + 64
    rw [e5]; omega

/-- THE RESULT ARRAY after the region: the whole product of the two arrays as the region found them. -/
theorem array (c : Dev nD) :
    (dat0 V c).arrAt 2 cfg0.N = Cert.Gcn.transform0 (V c main_arg0) (V c main_arg2) :=
  (dat0 V c).arrAt_eq_of_cover 2 _ (fun t _ => written V c t) covered

end Cert.KernelIdeal.Region0

end
-- ==== Proof.Region1.lean ====
/-
  The bias-and-rectifier region: `relu (Y + b₀)`, tile by tile, is the whole array's.

  The region walks 20 tiles of 5000 rows.  At tile `t` it is given rows `5000 t … 5000 t + 4999` of the node matrix and
  the one-row bias, and writes the same rows of the result; the 20 tiles are disjoint and fill the 100000 rows.  On a
  tile the body adds the bias row to every row and takes the maximum with zero: the result array, after the region, is that
  function of the two arrays the region found, entry by entry.
-/
import proofs.«134402_j7937099563688_1_alg».proof.Proof.Gen.KernelIdeal.Frame
import proofs.«134402_j7937099563688_1_alg».proof.Proof.Tiles
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The bias row `r` added to every row of `Y`, then the maximum with zero, entry by entry. -/
def rowBiasRelu (Y : FVec Ideal S100000x64 .f32) (r : FVec Ideal S1x64 .f32) : FVec Ideal S100000x64 .f32 :=
  fun i => max (Y i + r (ix2 (0 : Fin 1) (i 1))) (Ideal.ofBits .f32 0x00000000#32)

/-- Which block of its array each window holds at tile `t`, decided over the grid: row block `t` of the node matrix and of
    the result, the one block of the bias row. -/
theorem tiles : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of tile `t`, as a row of the whole array. -/
def row (t : Fin cfg1.N) (p : Fin 5000) : Fin 100000 :=
  ⟨t.val * 5000 + p.val, by have := t.isLt; have hN : cfg1.N = 20 := N_1; have := p.isLt; omega⟩

/-- The node matrix's tile is its rows `5000 t + p`. -/
theorem tileY (c : Dev nD) (t : Fin cfg1.N) (p : Fin 5000) (q : Fin 64) :
    iblk1 V c 0 t (ix2 p q) = V c main_v43 (ix2 (row t p) q) := by
  obtain ⟨e0, e1, -⟩ := tiles t
  show V c main_v43 (((cfg1.win 0).blk t).view.emb (ix2 p q)) = _
  refine congrArg (V c main_v43) ?_
  funext a; apply Fin.ext
  match a with
  | ⟨0, _⟩ => show win1_0.index t (0 : Fin 2) * 5000 + 1 * p.val = t.val * 5000 + p.val; rw [e0]; omega
  | ⟨1, _⟩ => show win1_0.index t (1 : Fin 2) * 64 + 1 * q.val = q.val; rw [e1]; omega

/-- The bias row's one block is the whole row. -/
theorem tileB (c : Dev nD) (t : Fin cfg1.N) (q : Fin 64) :
    iblk1 V c 1 t (ix2 (0 : Fin 1) q) = V c main_v44 (ix2 (0 : Fin 1) q) := by
  obtain ⟨-, -, e2, e3, -⟩ := tiles t
  show V c main_v44 (((cfg1.win 1).blk t).view.emb (ix2 (0 : Fin 1) q)) = _
  refine congrArg (V c main_v44) ?_
  funext a; apply Fin.ext
  match a with
  | ⟨0, _⟩ => show win1_1.index t (0 : Fin 2) * 1 + 1 * 0 = 0; rw [e2]
  | ⟨1, _⟩ => show win1_1.index t (1 : Fin 2) * 64 + 1 * q.val = q.val; rw [e3]; omega

/-- Entry `(p, q)` of the result's tile sits at row `5000 t + p` of the result array. -/
theorem tileOut (t : Fin cfg1.N) (p : Fin 5000) (q : Fin 64) :
    ((cfg1.win 2).blk t).view.emb (ix2 p q) = ix2 (row t p) q := by
  obtain ⟨-, -, -, -, e4, e5⟩ := tiles t
  funext a; apply Fin.ext
  match a with
  | ⟨0, _⟩ => show win1_2.index t (0 : Fin 2) * 5000 + 1 * p.val = t.val * 5000 + p.val; rw [e4]; omega
  | ⟨1, _⟩ => show win1_2.index t (1 : Fin 2) * 64 + 1 * q.val = q.val; rw [e5]; omega

/-- What tile `t` writes back is tile `t` of `rowBiasRelu` of the arrays as the region finds them. -/
theorem written (c : Dev nD) (t : Fin cfg1.N) :
    (dat1 V c).flushed 2 t
      = ((cfg1.win 2).blk t).view.read (Elt Ideal) (rowBiasRelu (V c main_v43) (V c main_v44)) := by
  show (cfg1.win 2).cut (grid1.coords t) ((dat1 V c).after 2 t) = _
  rw [after1_2]
  unfold out1_2
  rw [View.canon_unit_zero origin]
  simp only [View.ld_unit_zero (S := S5000x64) origin, View.ld_unit_zero (S := S1x64) origin]
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (ix2 p q)
    = rowBiasRelu (V c main_v43) (V c main_v44) (((cfg1.win 2).blk t).view.emb (ix2 p q))
  rw [tileOut t p q]
  refine (Tiles.biasRelu_apply (iblk1 V c 0 t) (iblk1 V c 1 t) p q).trans ?_
  rw [tileY V c t p q, tileB V c t q]
  rfl

/-- An index of the result array is in tile `t` iff each coordinate is in the tile's range on its axis. -/
theorem mem_tile (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v45).slice (win1_2.rect t)).set ↔ _
  rw [View.set_slice_whole, Rect.mem_set_unit]
  exact Iff.rfl

/-- Every entry of the result array is in the tile of its row: tile `row / 5000`. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by omega⟩, rfl⟩
  obtain ⟨-, -, -, -, e4, e5⟩ := tiles t
  refine ⟨t, flush1_2 t, ?_⟩
  rw [mem_tile]
  intro a
  match a with
  | ⟨0, _⟩ =>
    show win1_2.index t (0 : Fin 2) * 5000 ≤ (i 0).val ∧ (i 0).val < win1_2.index t (0 : Fin 2) * 5000 + 5000
    rw [e4, ht]; omega
  | ⟨1, _⟩ =>
    show win1_2.index t (1 : Fin 2) * 64 ≤ (i 1).val ∧ (i 1).val < win1_2.index t (1 : Fin 2) * 64 + 64
    rw [e5]; omega

/-- THE RESULT ARRAY after the region: `rowBiasRelu` of the two arrays as the region found them. -/
theorem array (c : Dev nD) :
    (dat1 V c).arrAt 2 cfg1.N = rowBiasRelu (V c main_v43) (V c main_v44) :=
  (dat1 V c).arrAt_eq_of_cover 2 _ (fun t _ => written V c t) covered

end Cert.KernelIdeal.Region1

end
-- ==== Proof.Region2.lean ====
/-
  The second product region: `H · W₁`, tile by tile, is the whole product.

  The region walks 20 tiles of 5000 rows.  At tile `t` it is given rows `5000 t … 5000 t + 4999` of the left operand and
  the whole weight matrix, and writes the same rows of the result; the 20 tiles are disjoint and fill the 100000 rows.
  On a tile the body's product is the plain sum over the shared coordinate, which is that row of the whole product:
  the result array, after the region, is the whole product of the arrays the region found.
-/
import proofs.«134402_j7937099563688_1_alg».proof.Proof.Gen.KernelIdeal.Frame
import proofs.«134402_j7937099563688_1_alg».proof.Proof.Tiles
import proofs.«134402_j7937099563688_1_alg».proof.Proof.NetworkAt
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat Cfg Window)

variable [Cert.ReferenceIdeal.Facts]
variable (V : (c : Dev nD) → (b : Ref sig .tc) → Buf (Elt Ideal) ((c : Thread nD τ).loc b))

theorem origin : (![0, 0] : Fin 2 → Nat) = fun _ => 0 := funext fun a => by fin_cases a <;> rfl

/-- Which block of its array each window holds at tile `t`, decided over the grid: row block `t` of the left operand and of
    the result, the one block of the weights. -/
theorem tiles : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `p` of tile `t`, as a row of the whole array. -/
def row (t : Fin cfg2.N) (p : Fin 5000) : Fin 100000 :=
  ⟨t.val * 5000 + p.val, by have := t.isLt; have hN : cfg2.N = 20 := N_2; have := p.isLt; omega⟩

/-- The left operand's tile is its rows `5000 t + p`. -/
theorem tileX (c : Dev nD) (t : Fin cfg2.N) (p : Fin 5000) (k : Fin 64) :
    iblk2 V c 0 t (ix2 p k) = V c main_v45 (ix2 (row t p) k) := by
  obtain ⟨e0, e1, -⟩ := tiles t
  show V c main_v45 (((cfg2.win 0).blk t).view.emb (ix2 p k)) = _
  refine congrArg (V c main_v45) ?_
  funext a; apply Fin.ext
  match a with
  | ⟨0, _⟩ => show win2_0.index t (0 : Fin 2) * 5000 + 1 * p.val = t.val * 5000 + p.val; rw [e0]; omega
  | ⟨1, _⟩ => show win2_0.index t (1 : Fin 2) * 64 + 1 * k.val = k.val; rw [e1]; omega

/-- The weights' one block is the whole matrix. -/
theorem tileW (c : Dev nD) (t : Fin cfg2.N) (k : Fin 64) (q : Fin 47) :
    iblk2 V c 1 t (ix2 k q) = V c main_arg4 (ix2 k q) := by
  obtain ⟨-, -, e2, e3, -⟩ := tiles t
  show V c main_arg4 (((cfg2.win 1).blk t).view.emb (ix2 k q)) = _
  refine congrArg (V c main_arg4) ?_
  funext a; apply Fin.ext
  match a with
  | ⟨0, _⟩ => show win2_1.index t (0 : Fin 2) * 64 + 1 * k.val = k.val; rw [e2]; omega
  | ⟨1, _⟩ => show win2_1.index t (1 : Fin 2) * 47 + 1 * q.val = q.val; rw [e3]; omega

/-- Entry `(p, q)` of the result's tile sits at row `5000 t + p` of the result array. -/
theorem tileOut (t : Fin cfg2.N) (p : Fin 5000) (q : Fin 47) :
    ((cfg2.win 2).blk t).view.emb (ix2 p q) = ix2 (row t p) q := by
  obtain ⟨-, -, -, -, e4, e5⟩ := tiles t
  funext a; apply Fin.ext
  match a with
  | ⟨0, _⟩ => show win2_2.index t (0 : Fin 2) * 5000 + 1 * p.val = t.val * 5000 + p.val; rw [e4]; omega
  | ⟨1, _⟩ => show win2_2.index t (1 : Fin 2) * 47 + 1 * q.val = q.val; rw [e5]; omega

/-- What tile `t` writes back is tile `t` of the whole product of the arrays as the region finds them. -/
theorem written (c : Dev nD) (t : Fin cfg2.N) :
    (dat2 V c).flushed 2 t
      = ((cfg2.win 2).blk t).view.read (Elt Ideal) (Cert.Gcn.transform1 (V c main_v45) (V c main_arg4)) := by
  show (cfg2.win 2).cut (grid2.coords t) ((dat2 V c).after 2 t) = _
  rw [after2_2]
  unfold out2_2
  rw [View.canon_unit_zero origin]
  simp only [View.ld_unit_zero (S := S5000x64) origin, View.ld_unit_zero (S := S64x47) origin]
  funext j
  obtain ⟨p, q, rfl⟩ : ∃ (p : Fin 5000) (q : Fin 47), j = ix2 p q := ⟨j 0, j 1, eq_ix2 j⟩
  show k2_pay1 (F := Ideal) (iblk2 V c 0 t) (iblk2 V c 1 t) (ix2 p q)
    = Cert.Gcn.transform1 (V c main_v45) (V c main_arg4) (((cfg2.win 2).blk t).view.emb (ix2 p q))
  rw [tileOut t p q]
  refine (Tiles.product1_apply (iblk2 V c 0 t) (iblk2 V c 1 t) p q).trans ?_
  refine ((Cert.Gcn.transform1_apply _ _ (row t p) q).trans ?_).symm
  refine Finset.sum_congr rfl fun k _ => ?_
  rw [tileX V c t p k, tileW V c t k q]

/-- An index of the result array is in tile `t` iff each coordinate is in the tile's range on its axis. -/
theorem mem_tile (t : Fin cfg2.N) (i : S100000x47.Idx) :
    i ∈ ((cfg2.win 2).blk t).view.set ↔ ∀ a : Fin 2, win2_2.index t a * S5000x47.size a ≤ (i a).val ∧ (i a).val < win2_2.index t a * S5000x47.size a + S5000x47.size a := by
  show i ∈ ((View.whole main_v46).slice (win2_2.rect t)).set ↔ _
  rw [View.set_slice_whole, Rect.mem_set_unit]
  exact Iff.rfl

/-- Every entry of the result array is in the tile of its row: tile `row / 5000`. -/
theorem covered (i : S100000x47.Idx) :
    ∃ t : Fin cfg2.N, (cfg2.win 2).flush t = true ∧ i ∈ ((cfg2.win 2).blk t).view.set := by
  have hi0 : (i 0).val < 100000 := (i 0).isLt
  have hi1 : (i 1).val < 47 := (i 1).isLt
  have hN : cfg2.N = 20 := N_2
  obtain ⟨t, ht⟩ : ∃ t : Fin cfg2.N, t.val = (i 0).val / 5000 := ⟨⟨(i 0).val / 5000, by omega⟩, rfl⟩
  obtain ⟨-, -, -, -, e4, e5⟩ := tiles t
  refine ⟨t, flush2_2 t, ?_⟩
  rw [mem_tile]
  intro a
  match a with
  | ⟨0, _⟩ =>
    show win2_2.index t (0 : Fin 2) * 5000 ≤ (i 0).val ∧ (i 0).val < win2_2.index t (0 : Fin 2) * 5000 + 5000
    rw [e4, ht]; omega
  | ⟨1, _⟩ =>
    show win2_2.index t (1 : Fin 2) * 47 ≤ (i 1).val ∧ (i 1).val < win2_2.index t (1 : Fin 2) * 47 + 47
    rw [e5]; omega

/-- THE RESULT ARRAY after the region: the whole product of the two arrays as the region found them. -/
theorem array (c : Dev nD) :
    (dat2 V c).arrAt 2 cfg2.N = Cert.Gcn.transform1 (V c main_v45) (V c main_arg4) :=
  (dat2 V c).arrAt_eq_of_cover 2 _ (fun t _ => written V c t) covered

end Cert.KernelIdeal.Region2

end
-- ==== Proof.Region3.lean ====
/-
  The last bias region: `Y + b₁`, tile by tile, is the whole array's.

  The region walks 20 tiles of 5000 rows.  At tile `t` it is given rows `5000 t … 5000 t + 4999` of the node matrix and
  the one-row bias, and writes the same rows of the result; the 20 tiles are disjoint and fill the 100000 rows.  On a
  tile the body adds the bias row to every row: the result array, after the region, is that
  function of the two arrays the region found, entry by entry.
-/
import proofs.«134402_j7937099563688_1_alg».proof.Proof.Gen.KernelIdeal.Frame
import proofs.«134402_j7937099563688_1_alg».proof.Proof.Tiles
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The bias row `r` added to every row of `Y`, entry by entry. -/
def rowBias (Y : FVec Ideal S100000x47 .f32) (r : FVec Ideal S1x47 .f32) : FVec Ideal S100000x47 .f32 :=
  fun i => Y i + r (ix2 (0 : Fin 1) (i 1))

/-- Which block of its array each window holds at tile `t`, decided over the grid: row block `t` of the node matrix and of
    the result, the one block of the bias row. -/
theorem tiles : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `p` of tile `t`, as a row of the whole array. -/
def row (t : Fin cfg3.N) (p : Fin 5000) : Fin 100000 :=
  ⟨t.val * 5000 + p.val, by have := t.isLt; have hN : cfg3.N = 20 := N_3; have := p.isLt; omega⟩

/-- The node matrix's tile is its rows `5000 t + p`. -/
theorem tileY (c : Dev nD) (t : Fin cfg3.N) (p : Fin 5000) (q : Fin 47) :
    iblk3 V c 0 t (ix2 p q) = V c main_v59 (ix2 (row t p) q) := by
  obtain ⟨e0, e1, -⟩ := tiles t
  show V c main_v59 (((cfg3.win 0).blk t).view.emb (ix2 p q)) = _
  refine congrArg (V c main_v59) ?_
  funext a; apply Fin.ext
  match a with
  | ⟨0, _⟩ => show win3_0.index t (0 : Fin 2) * 5000 + 1 * p.val = t.val * 5000 + p.val; rw [e0]; omega
  | ⟨1, _⟩ => show win3_0.index t (1 : Fin 2) * 47 + 1 * q.val = q.val; rw [e1]; omega

/-- The bias row's one block is the whole row. -/
theorem tileB (c : Dev nD) (t : Fin cfg3.N) (q : Fin 47) :
    iblk3 V c 1 t (ix2 (0 : Fin 1) q) = V c main_v60 (ix2 (0 : Fin 1) q) := by
  obtain ⟨-, -, e2, e3, -⟩ := tiles t
  show V c main_v60 (((cfg3.win 1).blk t).view.emb (ix2 (0 : Fin 1) q)) = _
  refine congrArg (V c main_v60) ?_
  funext a; apply Fin.ext
  match a with
  | ⟨0, _⟩ => show win3_1.index t (0 : Fin 2) * 1 + 1 * 0 = 0; rw [e2]
  | ⟨1, _⟩ => show win3_1.index t (1 : Fin 2) * 47 + 1 * q.val = q.val; rw [e3]; omega

/-- Entry `(p, q)` of the result's tile sits at row `5000 t + p` of the result array. -/
theorem tileOut (t : Fin cfg3.N) (p : Fin 5000) (q : Fin 47) :
    ((cfg3.win 2).blk t).view.emb (ix2 p q) = ix2 (row t p) q := by
  obtain ⟨-, -, -, -, e4, e5⟩ := tiles t
  funext a; apply Fin.ext
  match a with
  | ⟨0, _⟩ => show win3_2.index t (0 : Fin 2) * 5000 + 1 * p.val = t.val * 5000 + p.val; rw [e4]; omega
  | ⟨1, _⟩ => show win3_2.index t (1 : Fin 2) * 47 + 1 * q.val = q.val; rw [e5]; omega

/-- What tile `t` writes back is tile `t` of `rowBias` of the arrays as the region finds them. -/
theorem written (c : Dev nD) (t : Fin cfg3.N) :
    (dat3 V c).flushed 2 t
      = ((cfg3.win 2).blk t).view.read (Elt Ideal) (rowBias (V c main_v59) (V c main_v60)) := by
  show (cfg3.win 2).cut (grid3.coords t) ((dat3 V c).after 2 t) = _
  rw [after3_2]
  unfold out3_2
  rw [View.canon_unit_zero origin]
  simp only [View.ld_unit_zero (S := S5000x47) origin, View.ld_unit_zero (S := S1x47) origin]
  funext j
  obtain ⟨p, q, rfl⟩ : ∃ (p : Fin 5000) (q : Fin 47), j = ix2 p q := ⟨j 0, j 1, eq_ix2 j⟩
  show k3_pay1 (F := Ideal) (iblk3 V c 0 t) (iblk3 V c 1 t) (ix2 p q)
    = rowBias (V c main_v59) (V c main_v60) (((cfg3.win 2).blk t).view.emb (ix2 p q))
  rw [tileOut t p q]
  refine (Tiles.bias_apply (iblk3 V c 0 t) (iblk3 V c 1 t) p q).trans ?_
  rw [tileY V c t p q, tileB V c t q]
  rfl

/-- An index of the result array is in tile `t` iff each coordinate is in the tile's range on its axis. -/
theorem mem_tile (t : Fin cfg3.N) (i : S100000x47.Idx) :
    i ∈ ((cfg3.win 2).blk t).view.set ↔ ∀ a : Fin 2, win3_2.index t a * S5000x47.size a ≤ (i a).val ∧ (i a).val < win3_2.index t a * S5000x47.size a + S5000x47.size a := by
  show i ∈ ((View.whole main_v61).slice (win3_2.rect t)).set ↔ _
  rw [View.set_slice_whole, Rect.mem_set_unit]
  exact Iff.rfl

/-- Every entry of the result array is in the tile of its row: tile `row / 5000`. -/
theorem covered (i : S100000x47.Idx) :
    ∃ t : Fin cfg3.N, (cfg3.win 2).flush t = true ∧ i ∈ ((cfg3.win 2).blk t).view.set := by
  have hi0 : (i 0).val < 100000 := (i 0).isLt
  have hi1 : (i 1).val < 47 := (i 1).isLt
  have hN : cfg3.N = 20 := N_3
  obtain ⟨t, ht⟩ : ∃ t : Fin cfg3.N, t.val = (i 0).val / 5000 := ⟨⟨(i 0).val / 5000, by omega⟩, rfl⟩
  obtain ⟨-, -, -, -, e4, e5⟩ := tiles t
  refine ⟨t, flush3_2 t, ?_⟩
  rw [mem_tile]
  intro a
  match a with
  | ⟨0, _⟩ =>
    show win3_2.index t (0 : Fin 2) * 5000 ≤ (i 0).val ∧ (i 0).val < win3_2.index t (0 : Fin 2) * 5000 + 5000
    rw [e4, ht]; omega
  | ⟨1, _⟩ =>
    show win3_2.index t (1 : Fin 2) * 47 ≤ (i 1).val ∧ (i 1).val < win3_2.index t (1 : Fin 2) * 47 + 47
    rw [e5]; omega

/-- THE RESULT ARRAY after the region: `rowBias` of the two arrays as the region found them. -/
theorem array (c : Dev nD) :
    (dat3 V c).arrAt 2 cfg3.N = rowBias (V c main_v59) (V c main_v60) :=
  (dat3 V c).arrAt_eq_of_cover 2 _ (fun t _ => written V c t) covered

end Cert.KernelIdeal.Region3

end
-- ==== Proof.Fold.lean ====
/-
  The kernel computes the network: its buffer contents at every segment boundary, read as layers.

  The generated frame folds the device's buffers through @main's nine segments, `Gen.W0` (the launch) to `Gen.W9` (the
  return).  Followed here at the buffers the later segments read:

    W1 … W3   the edge ends, the flags and factors of the degrees, the edge weights       (three host stretches)
    W4        `X · W₀`                                                                     (the first product region)
    W5        its propagation, and the first bias as a row                                (a host stretch)
    W6        `relu (· + b₀)`: the hidden layer                                            (the bias-and-rectifier region)
    W7        `hidden · W₁`                                                                (the second product region)
    W8        its propagation, and the second bias as a row                               (a host stretch)
    W9        `· + b₁`: the network's output                                               (the last bias region)

  A host stretch is the reference's own lines, read back over any contents; a region's result array is the layer of
  the arrays it finds, tile by tile; every other buffer passes a segment untouched.  No step uses a law of
  arithmetic beyond the regions' own (a product into a zero accumulator is the plain sum; a bias row read at an entry).
-/
import proofs.«134402_j7937099563688_1_alg».proof.Proof.Gen.KernelIdeal.Frame
import proofs.«134402_j7937099563688_1_alg».proof.Proof.Stretch0
import proofs.«134402_j7937099563688_1_alg».proof.Proof.Stretch0a
import proofs.«134402_j7937099563688_1_alg».proof.Proof.Stretch0b
import proofs.«134402_j7937099563688_1_alg».proof.Proof.Stretch1
import proofs.«134402_j7937099563688_1_alg».proof.Proof.Stretch3
import proofs.«134402_j7937099563688_1_alg».proof.Proof.Region0
import proofs.«134402_j7937099563688_1_alg».proof.Proof.Region1
import proofs.«134402_j7937099563688_1_alg».proof.Proof.Region2
import proofs.«134402_j7937099563688_1_alg».proof.Proof.Region3
import proofs.«134402_j7937099563688_1_alg».proof.Proof.NetworkAt

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Idealize.ShloMosaic.ValueIdx

variable [Cert.ReferenceIdeal.Facts]

/-! ## A bias row against the bias vector -/

/-- Adding the row `r` and rectifying is the network's bias-and-rectifier layer of the vector `b` whose entries the row holds. -/
theorem rowBiasRelu_eq (Y : Cert.Gcn.FA Cert.ReferenceIdeal.S100000x64) (r : FVec Ideal S1x64 .f32) (b : Cert.Gcn.FA Cert.ReferenceIdeal.S64)
    (h : ∀ q : Fin 64, r (ix2 (0 : Fin 1) q) = b (ix1 q)) : Region1.rowBiasRelu Y r = Cert.Gcn.biasRelu64 Y b := by
  funext i
  obtain ⟨p, q, rfl⟩ : ∃ (p : Fin 100000) (q : Fin 64), i = ix2 p q := ⟨i 0, i 1, eq_ix2 i⟩
  rw [Cert.Gcn.biasRelu64_apply]
  show max (Y (ix2 p q) + r (ix2 (0 : Fin 1) q)) _ = _
  rw [h q]

/-- Adding the row `r` is the network's last bias layer of the vector `b` whose entries the row holds. -/
theorem rowBias_eq (Y : Cert.Gcn.FA Cert.ReferenceIdeal.S100000x47) (r : FVec Ideal S1x47 .f32) (b : Cert.Gcn.FA Cert.ReferenceIdeal.S47)
    (h : ∀ q : Fin 47, r (ix2 (0 : Fin 1) q) = b (ix1 q)) : Region3.rowBias Y r = Cert.Gcn.bias47 Y b := by
  funext i
  obtain ⟨p, q, rfl⟩ : ∃ (p : Fin 100000) (q : Fin 47), i = ix2 p q := ⟨i 0, i 1, eq_ix2 i⟩
  rw [Cert.Gcn.bias47_apply]
  show Y (ix2 p q) + r (ix2 (0 : Fin 1) q) = _
  rw [h q]

/-! ## The fold -/

variable (m : (ℓ : Loc nD τ sig) → Buf (Elt Ideal) ℓ) (ρ : Dev nD → PrngReg) (c : Dev nD)

/-- The six arguments as launched. -/
abbrev X : Cert.Gcn.FA Cert.ReferenceIdeal.S100000x100 := m ((c : Thread nD τ).loc main_arg0)
abbrev E : Cert.Gcn.IA Cert.ReferenceIdeal.S2x1600000 := m ((c : Thread nD τ).loc main_arg1)
abbrev Wt0 : Cert.Gcn.FA Cert.ReferenceIdeal.S100x64 := m ((c : Thread nD τ).loc main_arg2)
abbrev B0 : Cert.Gcn.FA Cert.ReferenceIdeal.S64 := m ((c : Thread nD τ).loc main_arg3)
abbrev Wt1 : Cert.Gcn.FA Cert.ReferenceIdeal.S64x47 := m ((c : Thread nD τ).loc main_arg4)
abbrev B1 : Cert.Gcn.FA Cert.ReferenceIdeal.S47 := m ((c : Thread nD τ).loc main_arg5)

/-! ### After the first stretch -/
theorem w1_sources : W1 m ρ c (Proc.devRef .tc main_v3) = Cert.Gcn.sources (E m c) := Stretch0.sources_eq (W0 m ρ c)
theorem w1_targets : W1 m ρ c (Proc.devRef .tc main_v6) = Cert.Gcn.targets (E m c) := Stretch0.targets_eq (W0 m ρ c)
theorem w1_positive : W1 m ρ c (Proc.devRef .tc main_v12) = Cert.Gcn.positive (Cert.Gcn.targets (E m c)) := Stretch0.positive_eq (W0 m ρ c)
theorem w1_rsqrt : W1 m ρ c (Proc.devRef .tc main_v13) = Cert.Gcn.rsqrtDegree (Cert.Gcn.targets (E m c)) := Stretch0.rsqrt_eq (W0 m ρ c)
theorem w1_zero : W1 m ρ c (Proc.devRef .tc main_cst_2) = constant (F := Ideal) S_ .f32 0x00000000#32 := Stretch0.zero_eq (W0 m ρ c)
theorem w1_arg0 : W1 m ρ c (Proc.devRef .tc main_arg0) = X m c := Stretch0.arg0_kept (W0 m ρ c)
theorem w1_arg2 : W1 m ρ c (Proc.devRef .tc main_arg2) = Wt0 m c := Stretch0.arg2_kept (W0 m ρ c)
theorem w1_arg3 : W1 m ρ c (Proc.devRef .tc main_arg3) = B0 m c := Stretch0.arg3_kept (W0 m ρ c)
theorem w1_arg4 : W1 m ρ c (Proc.devRef .tc main_arg4) = Wt1 m c := Stretch0.arg4_kept (W0 m ρ c)
theorem w1_arg5 : W1 m ρ c (Proc.devRef .tc main_arg5) = B1 m c := Stretch0.arg5_kept (W0 m ρ c)

/-! ### After the selection -/
theorem w2_factor : W2 m ρ c (Proc.devRef .tc main_v14) = Cert.Gcn.invSqrtDegree (E m c) :=
  (Stretch0a.guarded_eq (W1 m ρ c)).trans (by rw [w1_positive, w1_rsqrt, w1_zero]; rfl)
theorem w2_sources : W2 m ρ c (Proc.devRef .tc main_v3) = Cert.Gcn.sources (E m c) := (Stretch0a.sources_kept (W1 m ρ c)).trans (w1_sources m ρ c)
theorem w2_targets : W2 m ρ c (Proc.devRef .tc main_v6) = Cert.Gcn.targets (E m c) := (Stretch0a.targets_kept (W1 m ρ c)).trans (w1_targets m ρ c)
theorem w2_arg0 : W2 m ρ c (Proc.devRef .tc main_arg0) = X m c := (Stretch0a.arg0_kept (W1 m ρ c)).trans (w1_arg0 m ρ c)
theorem w2_arg2 : W2 m ρ c (Proc.devRef .tc main_arg2) = Wt0 m c := (Stretch0a.arg2_kept (W1 m ρ c)).trans (w1_arg2 m ρ c)
theorem w2_arg3 : W2 m ρ c (Proc.devRef .tc main_arg3) = B0 m c := (Stretch0a.arg3_kept (W1 m ρ c)).trans (w1_arg3 m ρ c)
theorem w2_arg4 : W2 m ρ c (Proc.devRef .tc main_arg4) = Wt1 m c := (Stretch0a.arg4_kept (W1 m ρ c)).trans (w1_arg4 m ρ c)
theorem w2_arg5 : W2 m ρ c (Proc.devRef .tc main_arg5) = B1 m c := (Stretch0a.arg5_kept (W1 m ρ c)).trans (w1_arg5 m ρ c)

/-! ### At the first region's entry -/
theorem w3_weight : W3 m ρ c (Proc.devRef .tc main_v29) = Cert.Gcn.edgeWeight (E m c) :=
  (Stretch0b.weight_eq (W2 m ρ c)).trans (by rw [w2_factor, w2_sources, w2_targets]; rfl)
theorem w3_sources : W3 m ρ c (Proc.devRef .tc main_v3) = Cert.Gcn.sources (E m c) := (Stretch0b.sources_kept (W2 m ρ c)).trans (w2_sources m ρ c)
theorem w3_targets : W3 m ρ c (Proc.devRef .tc main_v6) = Cert.Gcn.targets (E m c) := (Stretch0b.targets_kept (W2 m ρ c)).trans (w2_targets m ρ c)
theorem w3_arg0 : W3 m ρ c (Proc.devRef .tc main_arg0) = X m c := (Stretch0b.arg0_kept (W2 m ρ c)).trans (w2_arg0 m ρ c)
theorem w3_arg2 : W3 m ρ c (Proc.devRef .tc main_arg2) = Wt0 m c := (Stretch0b.arg2_kept (W2 m ρ c)).trans (w2_arg2 m ρ c)
theorem w3_arg3 : W3 m ρ c (Proc.devRef .tc main_arg3) = B0 m c := (Stretch0b.arg3_kept (W2 m ρ c)).trans (w2_arg3 m ρ c)
theorem w3_arg4 : W3 m ρ c (Proc.devRef .tc main_arg4) = Wt1 m c := (Stretch0b.arg4_kept (W2 m ρ c)).trans (w2_arg4 m ρ c)
theorem w3_arg5 : W3 m ρ c (Proc.devRef .tc main_arg5) = B1 m c := (Stretch0b.arg5_kept (W2 m ρ c)).trans (w2_arg5 m ρ c)

/-! ### After the first product region -/
theorem w4_product : W4 m ρ c (Proc.devRef .tc main_v30) = Cert.Gcn.transform0 (X m c) (Wt0 m c) :=
  (W4_arr m ρ c 2).trans ((Region0.array (V3 m ρ) c).trans
    (congrArg₂ Cert.Gcn.transform0 (w3_arg0 m ρ c) (w3_arg2 m ρ c)))
theorem w4_weight : W4 m ρ c (Proc.devRef .tc main_v29) = Cert.Gcn.edgeWeight (E m c) := (W4_of_ne m ρ c main_v29 (by decide)).trans (w3_weight m ρ c)
theorem w4_sources : W4 m ρ c (Proc.devRef .tc main_v3) = Cert.Gcn.sources (E m c) := (W4_of_ne m ρ c main_v3 (by decide)).trans (w3_sources m ρ c)
theorem w4_targets : W4 m ρ c (Proc.devRef .tc main_v6) = Cert.Gcn.targets (E m c) := (W4_of_ne m ρ c main_v6 (by decide)).trans (w3_targets m ρ c)
theorem w4_arg3 : W4 m ρ c (Proc.devRef .tc main_arg3) = B0 m c := (W4_of_ne m ρ c main_arg3 (by decide)).trans (w3_arg3 m ρ c)
theorem w4_arg4 : W4 m ρ c (Proc.devRef .tc main_arg4) = Wt1 m c := (W4_of_ne m ρ c main_arg4 (by decide)).trans (w3_arg4 m ρ c)
theorem w4_arg5 : W4 m ρ c (Proc.devRef .tc main_arg5) = B1 m c := (W4_of_ne m ρ c main_arg5 (by decide)).trans (w3_arg5 m ρ c)

/-! ### At the second region's entry -/
theorem w5_propagated : W5 m ρ c (Proc.devRef .tc main_v43) = Cert.Gcn.propagate64 (E m c) (Cert.Gcn.transform0 (X m c) (Wt0 m c)) :=
  (Stretch1.weightedSum_eq (W4 m ρ c)).trans (by rw [w4_weight, w4_sources, w4_targets, w4_product]; rfl)
theorem w5_row (q : Fin 64) : W5 m ρ c (Proc.devRef .tc main_v44) (ix2 (0 : Fin 1) q) = B0 m c (ix1 q) :=
  (Stretch1.biasRow_eq (W4 m ρ c) q).trans (congrFun (w4_arg3 m ρ c) (ix1 q))
theorem w5_weight : W5 m ρ c (Proc.devRef .tc main_v29) = Cert.Gcn.edgeWeight (E m c) := (Stretch1.weight_kept (W4 m ρ c)).trans (w4_weight m ρ c)
theorem w5_sources : W5 m ρ c (Proc.devRef .tc main_v3) = Cert.Gcn.sources (E m c) := (Stretch1.sources_kept (W4 m ρ c)).trans (w4_sources m ρ c)
theorem w5_targets : W5 m ρ c (Proc.devRef .tc main_v6) = Cert.Gcn.targets (E m c) := (Stretch1.targets_kept (W4 m ρ c)).trans (w4_targets m ρ c)
theorem w5_arg4 : W5 m ρ c (Proc.devRef .tc main_arg4) = Wt1 m c := (Stretch1.arg4_kept (W4 m ρ c)).trans (w4_arg4 m ρ c)
theorem w5_arg5 : W5 m ρ c (Proc.devRef .tc main_arg5) = B1 m c := (Stretch1.arg5_kept (W4 m ρ c)).trans (w4_arg5 m ρ c)

/-! ### After the bias-and-rectifier region -/
theorem w6_hidden : W6 m ρ c (Proc.devRef .tc main_v45) = Cert.Gcn.hidden (X m c) (E m c) (Wt0 m c) (B0 m c) :=
  (W6_arr m ρ c 2).trans ((Region1.array (V5 m ρ) c).trans
    ((rowBiasRelu_eq _ _ (B0 m c) (w5_row m ρ c)).trans (congrArg (Cert.Gcn.biasRelu64 · (B0 m c)) (w5_propagated m ρ c))))
theorem w6_weight : W6 m ρ c (Proc.devRef .tc main_v29) = Cert.Gcn.edgeWeight (E m c) := (W6_of_ne m ρ c main_v29 (by decide)).trans (w5_weight m ρ c)
theorem w6_sources : W6 m ρ c (Proc.devRef .tc main_v3) = Cert.Gcn.sources (E m c) := (W6_of_ne m ρ c main_v3 (by decide)).trans (w5_sources m ρ c)
theorem w6_targets : W6 m ρ c (Proc.devRef .tc main_v6) = Cert.Gcn.targets (E m c) := (W6_of_ne m ρ c main_v6 (by decide)).trans (w5_targets m ρ c)
theorem w6_arg4 : W6 m ρ c (Proc.devRef .tc main_arg4) = Wt1 m c := (W6_of_ne m ρ c main_arg4 (by decide)).trans (w5_arg4 m ρ c)
theorem w6_arg5 : W6 m ρ c (Proc.devRef .tc main_arg5) = B1 m c := (W6_of_ne m ρ c main_arg5 (by decide)).trans (w5_arg5 m ρ c)

/-! ### After the second product region -/
theorem w7_product : W7 m ρ c (Proc.devRef .tc main_v46)
    = Cert.Gcn.transform1 (Cert.Gcn.hidden (X m c) (E m c) (Wt0 m c) (B0 m c)) (Wt1 m c) :=
  (W7_arr m ρ c 2).trans ((Region2.array (V6 m ρ) c).trans
    (congrArg₂ Cert.Gcn.transform1 (w6_hidden m ρ c) (w6_arg4 m ρ c)))
theorem w7_weight : W7 m ρ c (Proc.devRef .tc main_v29) = Cert.Gcn.edgeWeight (E m c) := (W7_of_ne m ρ c main_v29 (by decide)).trans (w6_weight m ρ c)
theorem w7_sources : W7 m ρ c (Proc.devRef .tc main_v3) = Cert.Gcn.sources (E m c) := (W7_of_ne m ρ c main_v3 (by decide)).trans (w6_sources m ρ c)
theorem w7_targets : W7 m ρ c (Proc.devRef .tc main_v6) = Cert.Gcn.targets (E m c) := (W7_of_ne m ρ c main_v6 (by decide)).trans (w6_targets m ρ c)
theorem w7_arg5 : W7 m ρ c (Proc.devRef .tc main_arg5) = B1 m c := (W7_of_ne m ρ c main_arg5 (by decide)).trans (w6_arg5 m ρ c)

/-! ### At the last region's entry -/
theorem w8_propagated : W8 m ρ c (Proc.devRef .tc main_v59)
    = Cert.Gcn.propagate47 (E m c) (Cert.Gcn.transform1 (Cert.Gcn.hidden (X m c) (E m c) (Wt0 m c) (B0 m c)) (Wt1 m c)) :=
  (Stretch3.weightedSum_eq (W7 m ρ c)).trans (by rw [w7_weight, w7_sources, w7_targets, w7_product]; rfl)
theorem w8_row (q : Fin 47) : W8 m ρ c (Proc.devRef .tc main_v60) (ix2 (0 : Fin 1) q) = B1 m c (ix1 q) :=
  (Stretch3.biasRow_eq (W7 m ρ c) q).trans (congrFun (w7_arg5 m ρ c) (ix1 q))

/-! ### At the return -/
/-- THE KERNEL'S RESULT: the last fold at the result buffer is the network's output of the arguments as launched. -/
theorem w9_output : W9 m ρ c (Proc.devRef .tc main_v61)
    = Cert.Gcn.output (X m c) (E m c) (Wt0 m c) (B0 m c) (Wt1 m c) (B1 m c) :=
  (W9_arr m ρ c 2).trans ((Region3.array (V8 m ρ) c).trans
    ((rowBias_eq _ _ (B1 m c) (w8_row m ρ c)).trans (congrArg (Cert.Gcn.bias47 · (B1 m c)) (w8_propagated m ρ c))))

end Cert.KernelIdeal.Fold

end
-- ==== Proof.ReferenceOps.lean ====
/-
  The reference as a list of host operations.

  The reference has no device region: its @main is a straight line of 83 host operations.  Listed in order (an
  outlined function's operations in its call's place) they are @main itself, so its run is the fold of the list over
  the launch contents.
-/
import proofs.«134402_j7937099563688_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's 83 operations, in order. -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (.of main_cst_2 : TRef sig ⟨S_, .f32⟩) (.of main_call0_v0 : TRef sig ⟨S_, .f32⟩) id,
    TRef.unary (.of main_call0_v0 : TRef sig ⟨S_, .f32⟩) (.of main_call0_v1 : TRef sig ⟨S100000, .f32⟩) (broadcastInDim S100000 ![] bcast_S_S100000),
    TRef.ternary (.of main_v12 : TRef sig ⟨S100000, .i1⟩) (.of main_v13 : TRef sig ⟨S100000, .f32⟩) (.of main_call0_v1 : TRef sig ⟨S100000, .f32⟩) (.of main_v14 : TRef sig ⟨S100000, .f32⟩) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    binary main_arg0 main_arg2 main_v30 ((fun l r => Host.dotGeneral dot_S100000x100_S100x64_S100000x64_1_0_0_1_n_n none l r) : (⟨S100000x100, .f32⟩ : BufTy).Contents (Elt F) → (⟨S100x64, .f32⟩ : BufTy).Contents (Elt F) → (⟨S100000x64, .f32⟩ : BufTy).Contents (Elt F)),
    unary main_v29 main_v31 (broadcastInDim S1700000x1 ![0] bcast_S1700000_S1700000x1_0 : (⟨S1700000, .f32⟩ : BufTy).Contents (Elt F) → (⟨S1700000x1, .f32⟩ : BufTy).Contents (Elt F)),
    nullary main_c_6 (constantI S_ 32 0#32),
    unary main_c_6 main_v32 (broadcastInDim S1700000 ![] bcast_S_S1700000 : (⟨S_, .i32⟩ : BufTy).Contents (Elt F) → (⟨S1700000, .i32⟩ : BufTy).Contents (Elt F)),
    binary main_v3 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v34 (broadcastInDim S1700000 ![] bcast_S_S1700000 : (⟨S_, .i32⟩ : BufTy).Contents (Elt F) → (⟨S1700000, .i32⟩ : BufTy).Contents (Elt F)),
    binary main_v3 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v3 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v30 main_v37 main_v38 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v39 main_v38 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    TRef.nullary (.of main_call1_cst : TRef sig ⟨S_, .f32⟩) (constant S_ .f32 0x00000000#32),
    TRef.unary (.of main_call1_cst : TRef sig ⟨S_, .f32⟩) (.of main_call1_v0 : TRef sig ⟨S100000x64, .f32⟩) (broadcastInDim S100000x64 ![] bcast_S_S100000x64),
    TRef.binary (.of main_v46 : TRef sig ⟨S100000x64, .f32⟩) (.of main_call1_v0 : TRef sig ⟨S100000x64, .f32⟩) (.of main_v47 : TRef sig ⟨S100000x64, .f32⟩) maximumf,
    binary main_v47 main_arg4 main_v48 ((fun l r => Host.dotGeneral dot_S100000x64_S64x47_S100000x47_1_0_0_1_n_n none l r) : (⟨S100000x64, .f32⟩ : BufTy).Contents (Elt F) → (⟨S64x47, .f32⟩ : BufTy).Contents (Elt F) → (⟨S100000x47, .f32⟩ : BufTy).Contents (Elt F)),
    unary main_v29 main_v49 (broadcastInDim S1700000x1 ![0] bcast_S1700000_S1700000x1_0 : (⟨S1700000, .f32⟩ : BufTy).Contents (Elt F) → (⟨S1700000x1, .f32⟩ : BufTy).Contents (Elt F)),
    nullary main_c_9 (constantI S_ 32 0#32),
    unary main_c_9 main_v50 (broadcastInDim S1700000 ![] bcast_S_S1700000 : (⟨S_, .i32⟩ : BufTy).Contents (Elt F) → (⟨S1700000, .i32⟩ : BufTy).Contents (Elt F)),
    binary main_v3 main_v50 main_v51 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v52 (broadcastInDim S1700000 ![] bcast_S_S1700000 : (⟨S_, .i32⟩ : BufTy).Contents (Elt F) → (⟨S1700000, .i32⟩ : BufTy).Contents (Elt F)),
    binary main_v3 main_v52 main_v53 (addi : (⟨S1700000, .i32⟩ : BufTy).Contents (Elt F) → (⟨S1700000, .i32⟩ : BufTy).Contents (Elt F) → (⟨S1700000, .i32⟩ : BufTy).Contents (Elt F)),
    ternary main_v51 main_v53 main_v3 main_v54 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v54 main_v55 (broadcastInDim S1700000x1 ![0] bcast_S1700000_S1700000x1_0 : (⟨S1700000, .i32⟩ : BufTy).Contents (Elt F) → (⟨S1700000x1, .i32⟩ : BufTy).Contents (Elt F)),
    binary main_v48 main_v55 main_v56 ((fun x i => Host.gather gather_S100000x47_S1700000x1_S1700000x47_1_0_n_n_0_1_147 x i) : (⟨S100000x47, .f32⟩ : BufTy).Contents (Elt F) → (⟨S1700000x1, .i32⟩ : BufTy).Contents (Elt F) → (⟨S1700000x47, .f32⟩ : BufTy).Contents (Elt F)),
    unary main_v49 main_v57 (broadcastInDim S1700000x47 ![0, 1] bcast_S1700000x1_S1700000x47_0_1 : (⟨S1700000x1, .f32⟩ : BufTy).Contents (Elt F) → (⟨S1700000x47, .f32⟩ : BufTy).Contents (Elt F)),
    binary main_v57 main_v56 main_v58 (mulf : (⟨S1700000x47, .f32⟩ : BufTy).Contents (Elt F) → (⟨S1700000x47, .f32⟩ : BufTy).Contents (Elt F) → (⟨S1700000x47, .f32⟩ : BufTy).Contents (Elt F)),
    nullary main_cst_11 (constant S_ .f32 0x00000000#32),
    unary main_cst_11 main_v59 (broadcastInDim S100000x47 ![] bcast_S_S100000x47 : (⟨S_, .f32⟩ : BufTy).Contents (Elt F) → (⟨S100000x47, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x47_S1700000x1_S1700000x47_1_0_0_1 x i u) : (⟨S100000x47, .f32⟩ : BufTy).Contents (Elt F) → (⟨S1700000x1, .i32⟩ : BufTy).Contents (Elt F) → (⟨S1700000x47, .f32⟩ : BufTy).Contents (Elt F) → (⟨S100000x47, .f32⟩ : BufTy).Contents (Elt F)),
    unary main_arg5 main_v62 (broadcastInDim S1x47 ![1] bcast_S47_S1x47_1 : (⟨S47, .f32⟩ : BufTy).Contents (Elt F) → (⟨S1x47, .f32⟩ : BufTy).Contents (Elt F)),
    unary main_v62 main_v63 (broadcastInDim S100000x47 ![0, 1] bcast_S1x47_S100000x47_0_1 : (⟨S1x47, .f32⟩ : BufTy).Contents (Elt F) → (⟨S100000x47, .f32⟩ : BufTy).Contents (Elt F)),
    binary main_v61 main_v63 main_v64 (addf : (⟨S100000x47, .f32⟩ : BufTy).Contents (Elt F) → (⟨S100000x47, .f32⟩ : BufTy).Contents (Elt F) → (⟨S100000x47, .f32⟩ : BufTy).Contents (Elt F)) ]

set_option maxRecDepth 8192 in
set_option maxHeartbeats 4000000 in
/-- @main is the sequence of its operations. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Every operation touches TensorCore references only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub ..⟩

end Cert.ReferenceIdeal.HostRun

end
-- ==== Proof.ReferenceStretches.lean ====
/-
  The reference's 83 host operations, cut into eight consecutive stretches: the edge ends, the degrees, their flags and inverse square roots; the outlined selection; the edge weights; the first feature transform and its propagation; the first bias; the outlined rectifier; the second feature transform and its propagation; the second bias.
  The list is their concatenation, and the fold of a concatenation is the fold of its second part over the fold of its first.
-/
import proofs.«134402_j7937099563688_1_alg».proof.Proof.ReferenceOps

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 18: the edge ends, the degrees, their flags and inverse square roots. -/
abbrev segA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- Operations 19 … 21: the outlined selection. -/
abbrev segB : List (HloOp τ sig (Elt F)) :=
  [ TRef.unary (.of main_cst_2 : TRef sig ⟨S_, .f32⟩) (.of main_call0_v0 : TRef sig ⟨S_, .f32⟩) id,
    TRef.unary (.of main_call0_v0 : TRef sig ⟨S_, .f32⟩) (.of main_call0_v1 : TRef sig ⟨S100000, .f32⟩) (broadcastInDim S100000 ![] bcast_S_S100000),
    TRef.ternary (.of main_v12 : TRef sig ⟨S100000, .i1⟩) (.of main_v13 : TRef sig ⟨S100000, .f32⟩) (.of main_call0_v1 : TRef sig ⟨S100000, .f32⟩) (.of main_v14 : TRef sig ⟨S100000, .f32⟩) select ]

/-- Operations 22 … 40: the edge weights. -/
abbrev segC : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

/-- Operations 41 … 57: the first feature transform and its propagation. -/
abbrev segD : List (HloOp τ sig (Elt F)) :=
  [ binary main_arg0 main_arg2 main_v30 ((fun l r => Host.dotGeneral dot_S100000x100_S100x64_S100000x64_1_0_0_1_n_n none l r) : (⟨S100000x100, .f32⟩ : BufTy).Contents (Elt F) → (⟨S100x64, .f32⟩ : BufTy).Contents (Elt F) → (⟨S100000x64, .f32⟩ : BufTy).Contents (Elt F)),
    unary main_v29 main_v31 (broadcastInDim S1700000x1 ![0] bcast_S1700000_S1700000x1_0 : (⟨S1700000, .f32⟩ : BufTy).Contents (Elt F) → (⟨S1700000x1, .f32⟩ : BufTy).Contents (Elt F)),
    nullary main_c_6 (constantI S_ 32 0#32),
    unary main_c_6 main_v32 (broadcastInDim S1700000 ![] bcast_S_S1700000 : (⟨S_, .i32⟩ : BufTy).Contents (Elt F) → (⟨S1700000, .i32⟩ : BufTy).Contents (Elt F)),
    binary main_v3 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v34 (broadcastInDim S1700000 ![] bcast_S_S1700000 : (⟨S_, .i32⟩ : BufTy).Contents (Elt F) → (⟨S1700000, .i32⟩ : BufTy).Contents (Elt F)),
    binary main_v3 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v3 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v30 main_v37 main_v38 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v39 main_v38 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Operations 58 … 60: the first bias. -/
abbrev segE : List (HloOp τ sig (Elt F)) :=
  [ unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)) ]

/-- Operations 61 … 63: the outlined rectifier. -/
abbrev segF : List (HloOp τ sig (Elt F)) :=
  [ TRef.nullary (.of main_call1_cst : TRef sig ⟨S_, .f32⟩) (constant S_ .f32 0x00000000#32),
    TRef.unary (.of main_call1_cst : TRef sig ⟨S_, .f32⟩) (.of main_call1_v0 : TRef sig ⟨S100000x64, .f32⟩) (broadcastInDim S100000x64 ![] bcast_S_S100000x64),
    TRef.binary (.of main_v46 : TRef sig ⟨S100000x64, .f32⟩) (.of main_call1_v0 : TRef sig ⟨S100000x64, .f32⟩) (.of main_v47 : TRef sig ⟨S100000x64, .f32⟩) maximumf ]

/-- Operations 64 … 80: the second feature transform and its propagation. -/
abbrev segG : List (HloOp τ sig (Elt F)) :=
  [ binary main_v47 main_arg4 main_v48 ((fun l r => Host.dotGeneral dot_S100000x64_S64x47_S100000x47_1_0_0_1_n_n none l r) : (⟨S100000x64, .f32⟩ : BufTy).Contents (Elt F) → (⟨S64x47, .f32⟩ : BufTy).Contents (Elt F) → (⟨S100000x47, .f32⟩ : BufTy).Contents (Elt F)),
    unary main_v29 main_v49 (broadcastInDim S1700000x1 ![0] bcast_S1700000_S1700000x1_0 : (⟨S1700000, .f32⟩ : BufTy).Contents (Elt F) → (⟨S1700000x1, .f32⟩ : BufTy).Contents (Elt F)),
    nullary main_c_9 (constantI S_ 32 0#32),
    unary main_c_9 main_v50 (broadcastInDim S1700000 ![] bcast_S_S1700000 : (⟨S_, .i32⟩ : BufTy).Contents (Elt F) → (⟨S1700000, .i32⟩ : BufTy).Contents (Elt F)),
    binary main_v3 main_v50 main_v51 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v52 (broadcastInDim S1700000 ![] bcast_S_S1700000 : (⟨S_, .i32⟩ : BufTy).Contents (Elt F) → (⟨S1700000, .i32⟩ : BufTy).Contents (Elt F)),
    binary main_v3 main_v52 main_v53 (addi : (⟨S1700000, .i32⟩ : BufTy).Contents (Elt F) → (⟨S1700000, .i32⟩ : BufTy).Contents (Elt F) → (⟨S1700000, .i32⟩ : BufTy).Contents (Elt F)),
    ternary main_v51 main_v53 main_v3 main_v54 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v54 main_v55 (broadcastInDim S1700000x1 ![0] bcast_S1700000_S1700000x1_0 : (⟨S1700000, .i32⟩ : BufTy).Contents (Elt F) → (⟨S1700000x1, .i32⟩ : BufTy).Contents (Elt F)),
    binary main_v48 main_v55 main_v56 ((fun x i => Host.gather gather_S100000x47_S1700000x1_S1700000x47_1_0_n_n_0_1_147 x i) : (⟨S100000x47, .f32⟩ : BufTy).Contents (Elt F) → (⟨S1700000x1, .i32⟩ : BufTy).Contents (Elt F) → (⟨S1700000x47, .f32⟩ : BufTy).Contents (Elt F)),
    unary main_v49 main_v57 (broadcastInDim S1700000x47 ![0, 1] bcast_S1700000x1_S1700000x47_0_1 : (⟨S1700000x1, .f32⟩ : BufTy).Contents (Elt F) → (⟨S1700000x47, .f32⟩ : BufTy).Contents (Elt F)),
    binary main_v57 main_v56 main_v58 (mulf : (⟨S1700000x47, .f32⟩ : BufTy).Contents (Elt F) → (⟨S1700000x47, .f32⟩ : BufTy).Contents (Elt F) → (⟨S1700000x47, .f32⟩ : BufTy).Contents (Elt F)),
    nullary main_cst_11 (constant S_ .f32 0x00000000#32),
    unary main_cst_11 main_v59 (broadcastInDim S100000x47 ![] bcast_S_S100000x47 : (⟨S_, .f32⟩ : BufTy).Contents (Elt F) → (⟨S100000x47, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x47_S1700000x1_S1700000x47_1_0_0_1 x i u) : (⟨S100000x47, .f32⟩ : BufTy).Contents (Elt F) → (⟨S1700000x1, .i32⟩ : BufTy).Contents (Elt F) → (⟨S1700000x47, .f32⟩ : BufTy).Contents (Elt F) → (⟨S100000x47, .f32⟩ : BufTy).Contents (Elt F)) ]

/-- Operations 81 … 83: the second bias. -/
abbrev segH : List (HloOp τ sig (Elt F)) :=
  [ unary main_arg5 main_v62 (broadcastInDim S1x47 ![1] bcast_S47_S1x47_1 : (⟨S47, .f32⟩ : BufTy).Contents (Elt F) → (⟨S1x47, .f32⟩ : BufTy).Contents (Elt F)),
    unary main_v62 main_v63 (broadcastInDim S100000x47 ![0, 1] bcast_S1x47_S100000x47_0_1 : (⟨S1x47, .f32⟩ : BufTy).Contents (Elt F) → (⟨S100000x47, .f32⟩ : BufTy).Contents (Elt F)),
    binary main_v61 main_v63 main_v64 (addf : (⟨S100000x47, .f32⟩ : BufTy).Contents (Elt F) → (⟨S100000x47, .f32⟩ : BufTy).Contents (Elt F) → (⟨S100000x47, .f32⟩ : BufTy).Contents (Elt F)) ]

set_option maxRecDepth 8192 in
/-- The list of operations is the stretches, in order. -/
theorem ops_split : (ops : List (HloOp τ sig (Elt F))) = segA ++ (segB ++ (segC ++ (segD ++ (segE ++ (segF ++ (segG ++ segH)))))) := rfl

/-- The fold of a concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The fold of all 83 operations, stretch by stretch. -/
theorem after_ops (V : Valuation τ sig (Elt F)) :
    after ops V = after segH (after segG (after segF (after segE (after segD (after segC (after segB (after segA V))))))) := by
  rw [ops_split, after_append, after_append, after_append, after_append, after_append, after_append, after_append]

end Cert.ReferenceIdeal.HostRun

end
-- ==== Proof.ReferenceRead1.lean ====
/-
  The reference's first three stretches, read back over ANY buffer contents `v`: the edge list's two rows with the
  self loops appended, the degrees of the destinations with their flags and inverse square roots; the selection; the
  edge weights.  Each is the network's definition of what it reads, as it stands; none writes an argument.
-/
import proofs.«134402_j7937099563688_1_alg».proof.Proof.ReferenceStretches
import proofs.«134402_j7937099563688_1_alg».proof.Proof.Network
import proofs.«134402_j7937099563688_1_alg».proof.Proof.LibHostKept

noncomputable section

namespace Cert.ReferenceIdeal.HostRun

open Cert.ReferenceIdeal Cert.ReferenceIdeal.Gen Idealize.ShloMosaic Idealize.ShloMosaic.TcCoe Idealize.SL.Sem Idealize.ShloMosaic.StableHlo
open Cert.Kept

variable (v : Valuation τ sig (Elt Ideal))

set_option maxHeartbeats 4000000 in
theorem sources_eq : after segA v (Proc.devRef .tc main_v3) = Cert.Gcn.sources (v (Proc.devRef .tc main_arg1)) := by
  after_results
  rfl
set_option maxHeartbeats 4000000 in
theorem targets_eq : after segA v (Proc.devRef .tc main_v6) = Cert.Gcn.targets (v (Proc.devRef .tc main_arg1)) := by
  after_results
  rfl
set_option maxHeartbeats 4000000 in
theorem positive_eq : after segA v (Proc.devRef .tc main_v12) = Cert.Gcn.positive (Cert.Gcn.targets (v (Proc.devRef .tc main_arg1))) := by
  after_results
  rfl
set_option maxHeartbeats 4000000 in
theorem rsqrt_eq : after segA v (Proc.devRef .tc main_v13) = Cert.Gcn.rsqrtDegree (Cert.Gcn.targets (v (Proc.devRef .tc main_arg1))) := by
  after_results
  rfl
set_option maxHeartbeats 4000000 in
theorem zero_eq : after segA v (Proc.devRef .tc main_cst_2) = constant (F := Ideal) S_ .f32 0x00000000#32 := by
  after_results
theorem arg0_keptA : after segA v (Proc.devRef .tc main_arg0) = v (Proc.devRef .tc main_arg0) := by host_kept segA
theorem arg2_keptA : after segA v (Proc.devRef .tc main_arg2) = v (Proc.devRef .tc main_arg2) := by host_kept segA
theorem arg3_keptA : after segA v (Proc.devRef .tc main_arg3) = v (Proc.devRef .tc main_arg3) := by host_kept segA
theorem arg4_keptA : after segA v (Proc.devRef .tc main_arg4) = v (Proc.devRef .tc main_arg4) := by host_kept segA
theorem arg5_keptA : after segA v (Proc.devRef .tc main_arg5) = v (Proc.devRef .tc main_arg5) := by host_kept segA

theorem guarded_eq : after segB v (Proc.devRef .tc main_v14)
    = Cert.Gcn.guarded (v (Proc.devRef .tc main_v12)) (v (Proc.devRef .tc main_v13)) (v (Proc.devRef .tc main_cst_2)) := by
  after_results
  rfl
theorem sources_keptB : after segB v (Proc.devRef .tc main_v3) = v (Proc.devRef .tc main_v3) := by host_kept segB
theorem targets_keptB : after segB v (Proc.devRef .tc main_v6) = v (Proc.devRef .tc main_v6) := by host_kept segB
theorem arg0_keptB : after segB v (Proc.devRef .tc main_arg0) = v (Proc.devRef .tc main_arg0) := by host_kept segB
theorem arg2_keptB : after segB v (Proc.devRef .tc main_arg2) = v (Proc.devRef .tc main_arg2) := by host_kept segB
theorem arg3_keptB : after segB v (Proc.devRef .tc main_arg3) = v (Proc.devRef .tc main_arg3) := by host_kept segB
theorem arg4_keptB : after segB v (Proc.devRef .tc main_arg4) = v (Proc.devRef .tc main_arg4) := by host_kept segB
theorem arg5_keptB : after segB v (Proc.devRef .tc main_arg5) = v (Proc.devRef .tc main_arg5) := by host_kept segB

set_option maxHeartbeats 4000000 in
theorem weight_eq : after segC v (Proc.devRef .tc main_v29)
    = Cert.Gcn.weightOf (v (Proc.devRef .tc main_v14)) (v (Proc.devRef .tc main_v3)) (v (Proc.devRef .tc main_v6)) := by
  after_results_simp
  rfl
theorem sources_keptC : after segC v (Proc.devRef .tc main_v3) = v (Proc.devRef .tc main_v3) := by host_kept segC
theorem targets_keptC : after segC v (Proc.devRef .tc main_v6) = v (Proc.devRef .tc main_v6) := by host_kept segC
theorem arg0_keptC : after segC v (Proc.devRef .tc main_arg0) = v (Proc.devRef .tc main_arg0) := by host_kept segC
theorem arg2_keptC : after segC v (Proc.devRef .tc main_arg2) = v (Proc.devRef .tc main_arg2) := by host_kept segC
theorem arg3_keptC : after segC v (Proc.devRef .tc main_arg3) = v (Proc.devRef .tc main_arg3) := by host_kept segC
theorem arg4_keptC : after segC v (Proc.devRef .tc main_arg4) = v (Proc.devRef .tc main_arg4) := by host_kept segC
theorem arg5_keptC : after segC v (Proc.devRef .tc main_arg5) = v (Proc.devRef .tc main_arg5) := by host_kept segC

end Cert.ReferenceIdeal.HostRun

end
-- ==== Proof.ReferenceRead2.lean ====
/-
  The reference's middle stretches, read back over ANY buffer contents `v`: the first feature transform and its
  propagation; the first bias; the rectifier.  Each is the network's definition of what it reads, as it stands.
-/
import proofs.«134402_j7937099563688_1_alg».proof.Proof.ReferenceStretches
import proofs.«134402_j7937099563688_1_alg».proof.Proof.Network
import proofs.«134402_j7937099563688_1_alg».proof.Proof.LibHostKept

noncomputable section

namespace Cert.ReferenceIdeal.HostRun

open Cert.ReferenceIdeal Cert.ReferenceIdeal.Gen Idealize.ShloMosaic Idealize.ShloMosaic.TcCoe Idealize.SL.Sem Idealize.ShloMosaic.StableHlo
open Cert.Kept

variable (v : Valuation τ sig (Elt Ideal))

set_option maxHeartbeats 4000000 in
theorem propagated_eq : after segD v (Proc.devRef .tc main_v43)
    = Cert.Gcn.weightedSum64 (v (Proc.devRef .tc main_v29)) (v (Proc.devRef .tc main_v3)) (v (Proc.devRef .tc main_v6))
        (Cert.Gcn.transform0 (v (Proc.devRef .tc main_arg0)) (v (Proc.devRef .tc main_arg2))) := by
  after_results_simp
  rfl
theorem sources_keptD : after segD v (Proc.devRef .tc main_v3) = v (Proc.devRef .tc main_v3) := by host_kept segD
theorem targets_keptD : after segD v (Proc.devRef .tc main_v6) = v (Proc.devRef .tc main_v6) := by host_kept segD
theorem weight_keptD : after segD v (Proc.devRef .tc main_v29) = v (Proc.devRef .tc main_v29) := by host_kept segD
theorem arg3_keptD : after segD v (Proc.devRef .tc main_arg3) = v (Proc.devRef .tc main_arg3) := by host_kept segD
theorem arg4_keptD : after segD v (Proc.devRef .tc main_arg4) = v (Proc.devRef .tc main_arg4) := by host_kept segD
theorem arg5_keptD : after segD v (Proc.devRef .tc main_arg5) = v (Proc.devRef .tc main_arg5) := by host_kept segD

theorem biased_eq : after segE v (Proc.devRef .tc main_v46) = Cert.Gcn.bias64 (v (Proc.devRef .tc main_v43)) (v (Proc.devRef .tc main_arg3)) := by
  after_results
  rfl
theorem sources_keptE : after segE v (Proc.devRef .tc main_v3) = v (Proc.devRef .tc main_v3) := by host_kept segE
theorem targets_keptE : after segE v (Proc.devRef .tc main_v6) = v (Proc.devRef .tc main_v6) := by host_kept segE
theorem weight_keptE : after segE v (Proc.devRef .tc main_v29) = v (Proc.devRef .tc main_v29) := by host_kept segE
theorem arg4_keptE : after segE v (Proc.devRef .tc main_arg4) = v (Proc.devRef .tc main_arg4) := by host_kept segE
theorem arg5_keptE : after segE v (Proc.devRef .tc main_arg5) = v (Proc.devRef .tc main_arg5) := by host_kept segE

theorem rectified_eq : after segF v (Proc.devRef .tc main_v47)
    = Cert.Gcn.relu64 (v (Proc.devRef .tc main_v46)) (constant (F := Ideal) S_ .f32 0x00000000#32) := by
  after_results
  rfl
theorem sources_keptF : after segF v (Proc.devRef .tc main_v3) = v (Proc.devRef .tc main_v3) := by host_kept segF
theorem targets_keptF : after segF v (Proc.devRef .tc main_v6) = v (Proc.devRef .tc main_v6) := by host_kept segF
theorem weight_keptF : after segF v (Proc.devRef .tc main_v29) = v (Proc.devRef .tc main_v29) := by host_kept segF
theorem arg4_keptF : after segF v (Proc.devRef .tc main_arg4) = v (Proc.devRef .tc main_arg4) := by host_kept segF
theorem arg5_keptF : after segF v (Proc.devRef .tc main_arg5) = v (Proc.devRef .tc main_arg5) := by host_kept segF

end Cert.ReferenceIdeal.HostRun

end
-- ==== Proof.ReferenceRead3.lean ====
/-
  The reference's last stretches, read back over ANY buffer contents `v`: the second feature transform and its
  propagation; the second bias.  Each is the network's definition of what it reads, as it stands.
-/
import proofs.«134402_j7937099563688_1_alg».proof.Proof.ReferenceStretches
import proofs.«134402_j7937099563688_1_alg».proof.Proof.Network
import proofs.«134402_j7937099563688_1_alg».proof.Proof.LibHostKept

noncomputable section

namespace Cert.ReferenceIdeal.HostRun

open Cert.ReferenceIdeal Cert.ReferenceIdeal.Gen Idealize.ShloMosaic Idealize.ShloMosaic.TcCoe Idealize.SL.Sem Idealize.ShloMosaic.StableHlo
open Cert.Kept

variable (v : Valuation τ sig (Elt Ideal))

set_option maxHeartbeats 4000000 in
theorem propagated2_eq : after segG v (Proc.devRef .tc main_v61)
    = Cert.Gcn.weightedSum47 (v (Proc.devRef .tc main_v29)) (v (Proc.devRef .tc main_v3)) (v (Proc.devRef .tc main_v6))
        (Cert.Gcn.transform1 (v (Proc.devRef .tc main_v47)) (v (Proc.devRef .tc main_arg4))) := by
  after_results_simp
  rfl
theorem arg5_keptG : after segG v (Proc.devRef .tc main_arg5) = v (Proc.devRef .tc main_arg5) := by host_kept segG

theorem biased2_eq : after segH v (Proc.devRef .tc main_v64) = Cert.Gcn.bias47 (v (Proc.devRef .tc main_v61)) (v (Proc.devRef .tc main_arg5)) := by
  after_results
  rfl

end Cert.ReferenceIdeal.HostRun

end
-- ==== Proof.ReferenceValue.lean ====
/-
  The reference computes the network, and its run.

  Its eight stretches in order: each reads what the earlier ones left and is the network's layer of it, and passes every
  other buffer untouched; so the fold of all 83 operations, read at the result buffer, is the network's output of the six
  arguments as found, and an argument's buffer is written by none.  Run from any memory, every weakly fair execution of the
  reference terminates with its result at the network's output of the arguments and the arguments unchanged.
-/
import proofs.«134402_j7937099563688_1_alg».proof.Proof.ReferenceRead1
import proofs.«134402_j7937099563688_1_alg».proof.Proof.ReferenceRead2
import proofs.«134402_j7937099563688_1_alg».proof.Proof.ReferenceRead3

noncomputable section

namespace Cert.ReferenceIdeal.HostRun

open Cert.ReferenceIdeal Cert.ReferenceIdeal.Gen Idealize.ShloMosaic Idealize.ShloMosaic.TcCoe Idealize.SL.Sem Idealize.ShloMosaic.StableHlo
open Cert.Kept

section Fold
variable (v : Valuation τ sig (Elt Ideal))

/-! ### After the first stretch -/
theorem u1_sources : (after segA v) (Proc.devRef .tc main_v3) = Cert.Gcn.sources (v (Proc.devRef .tc main_arg1)) := sources_eq v
theorem u1_targets : (after segA v) (Proc.devRef .tc main_v6) = Cert.Gcn.targets (v (Proc.devRef .tc main_arg1)) := targets_eq v
theorem u1_positive : (after segA v) (Proc.devRef .tc main_v12) = Cert.Gcn.positive (Cert.Gcn.targets (v (Proc.devRef .tc main_arg1))) := positive_eq v
theorem u1_rsqrt : (after segA v) (Proc.devRef .tc main_v13) = Cert.Gcn.rsqrtDegree (Cert.Gcn.targets (v (Proc.devRef .tc main_arg1))) := rsqrt_eq v
theorem u1_zero : (after segA v) (Proc.devRef .tc main_cst_2) = constant (F := Ideal) S_ .f32 0x00000000#32 := zero_eq v
theorem u1_arg0 : (after segA v) (Proc.devRef .tc main_arg0) = v (Proc.devRef .tc main_arg0) := arg0_keptA v
theorem u1_arg2 : (after segA v) (Proc.devRef .tc main_arg2) = v (Proc.devRef .tc main_arg2) := arg2_keptA v
theorem u1_arg3 : (after segA v) (Proc.devRef .tc main_arg3) = v (Proc.devRef .tc main_arg3) := arg3_keptA v
theorem u1_arg4 : (after segA v) (Proc.devRef .tc main_arg4) = v (Proc.devRef .tc main_arg4) := arg4_keptA v
theorem u1_arg5 : (after segA v) (Proc.devRef .tc main_arg5) = v (Proc.devRef .tc main_arg5) := arg5_keptA v

/-! ### After the selection -/
theorem u2_factor : (after segB (after segA v)) (Proc.devRef .tc main_v14) = Cert.Gcn.invSqrtDegree (v (Proc.devRef .tc main_arg1)) :=
  (guarded_eq (after segA v)).trans (by rw [u1_positive, u1_rsqrt, u1_zero]; rfl)
theorem u2_sources : (after segB (after segA v)) (Proc.devRef .tc main_v3) = Cert.Gcn.sources (v (Proc.devRef .tc main_arg1)) := (sources_keptB (after segA v)).trans (u1_sources v)
theorem u2_targets : (after segB (after segA v)) (Proc.devRef .tc main_v6) = Cert.Gcn.targets (v (Proc.devRef .tc main_arg1)) := (targets_keptB (after segA v)).trans (u1_targets v)
theorem u2_arg0 : (after segB (after segA v)) (Proc.devRef .tc main_arg0) = v (Proc.devRef .tc main_arg0) := (arg0_keptB (after segA v)).trans (u1_arg0 v)
theorem u2_arg2 : (after segB (after segA v)) (Proc.devRef .tc main_arg2) = v (Proc.devRef .tc main_arg2) := (arg2_keptB (after segA v)).trans (u1_arg2 v)
theorem u2_arg3 : (after segB (after segA v)) (Proc.devRef .tc main_arg3) = v (Proc.devRef .tc main_arg3) := (arg3_keptB (after segA v)).trans (u1_arg3 v)
theorem u2_arg4 : (after segB (after segA v)) (Proc.devRef .tc main_arg4) = v (Proc.devRef .tc main_arg4) := (arg4_keptB (after segA v)).trans (u1_arg4 v)
theorem u2_arg5 : (after segB (after segA v)) (Proc.devRef .tc main_arg5) = v (Proc.devRef .tc main_arg5) := (arg5_keptB (after segA v)).trans (u1_arg5 v)

/-! ### After the edge weights -/
theorem u3_weight : (after segC (after segB (after segA v))) (Proc.devRef .tc main_v29) = Cert.Gcn.edgeWeight (v (Proc.devRef .tc main_arg1)) :=
  (weight_eq (after segB (after segA v))).trans (by rw [u2_factor, u2_sources, u2_targets]; rfl)
theorem u3_sources : (after segC (after segB (after segA v))) (Proc.devRef .tc main_v3) = Cert.Gcn.sources (v (Proc.devRef .tc main_arg1)) := (sources_keptC (after segB (after segA v))).trans (u2_sources v)
theorem u3_targets : (after segC (after segB (after segA v))) (Proc.devRef .tc main_v6) = Cert.Gcn.targets (v (Proc.devRef .tc main_arg1)) := (targets_keptC (after segB (after segA v))).trans (u2_targets v)
theorem u3_arg0 : (after segC (after segB (after segA v))) (Proc.devRef .tc main_arg0) = v (Proc.devRef .tc main_arg0) := (arg0_keptC (after segB (after segA v))).trans (u2_arg0 v)
theorem u3_arg2 : (after segC (after segB (after segA v))) (Proc.devRef .tc main_arg2) = v (Proc.devRef .tc main_arg2) := (arg2_keptC (after segB (after segA v))).trans (u2_arg2 v)
theorem u3_arg3 : (after segC (after segB (after segA v))) (Proc.devRef .tc main_arg3) = v (Proc.devRef .tc main_arg3) := (arg3_keptC (after segB (after segA v))).trans (u2_arg3 v)
theorem u3_arg4 : (after segC (after segB (after segA v))) (Proc.devRef .tc main_arg4) = v (Proc.devRef .tc main_arg4) := (arg4_keptC (after segB (after segA v))).trans (u2_arg4 v)
theorem u3_arg5 : (after segC (after segB (after segA v))) (Proc.devRef .tc main_arg5) = v (Proc.devRef .tc main_arg5) := (arg5_keptC (after segB (after segA v))).trans (u2_arg5 v)

/-! ### After the first transform and its propagation -/
theorem u4_propagated : (after segD (after segC (after segB (after segA v)))) (Proc.devRef .tc main_v43) = (Cert.Gcn.propagate64 (v (Proc.devRef .tc main_arg1)) (Cert.Gcn.transform0 (v (Proc.devRef .tc main_arg0)) (v (Proc.devRef .tc main_arg2)))) :=
  (propagated_eq (after segC (after segB (after segA v)))).trans (by rw [u3_weight, u3_sources, u3_targets, u3_arg0, u3_arg2]; rfl)
theorem u4_sources : (after segD (after segC (after segB (after segA v)))) (Proc.devRef .tc main_v3) = Cert.Gcn.sources (v (Proc.devRef .tc main_arg1)) := (sources_keptD (after segC (after segB (after segA v)))).trans (u3_sources v)
theorem u4_targets : (after segD (after segC (after segB (after segA v)))) (Proc.devRef .tc main_v6) = Cert.Gcn.targets (v (Proc.devRef .tc main_arg1)) := (targets_keptD (after segC (after segB (after segA v)))).trans (u3_targets v)
theorem u4_weight : (after segD (after segC (after segB (after segA v)))) (Proc.devRef .tc main_v29) = Cert.Gcn.edgeWeight (v (Proc.devRef .tc main_arg1)) := (weight_keptD (after segC (after segB (after segA v)))).trans (u3_weight v)
theorem u4_arg3 : (after segD (after segC (after segB (after segA v)))) (Proc.devRef .tc main_arg3) = v (Proc.devRef .tc main_arg3) := (arg3_keptD (after segC (after segB (after segA v)))).trans (u3_arg3 v)
theorem u4_arg4 : (after segD (after segC (after segB (after segA v)))) (Proc.devRef .tc main_arg4) = v (Proc.devRef .tc main_arg4) := (arg4_keptD (after segC (after segB (after segA v)))).trans (u3_arg4 v)
theorem u4_arg5 : (after segD (after segC (after segB (after segA v)))) (Proc.devRef .tc main_arg5) = v (Proc.devRef .tc main_arg5) := (arg5_keptD (after segC (after segB (after segA v)))).trans (u3_arg5 v)

/-! ### After the first bias -/
theorem u5_biased : (after segE (after segD (after segC (after segB (after segA v))))) (Proc.devRef .tc main_v46) = Cert.Gcn.bias64 (Cert.Gcn.propagate64 (v (Proc.devRef .tc main_arg1)) (Cert.Gcn.transform0 (v (Proc.devRef .tc main_arg0)) (v (Proc.devRef .tc main_arg2)))) (v (Proc.devRef .tc main_arg3)) :=
  (biased_eq (after segD (after segC (after segB (after segA v))))).trans (by rw [u4_propagated, u4_arg3])
theorem u5_sources : (after segE (after segD (after segC (after segB (after segA v))))) (Proc.devRef .tc main_v3) = Cert.Gcn.sources (v (Proc.devRef .tc main_arg1)) := (sources_keptE (after segD (after segC (after segB (after segA v))))).trans (u4_sources v)
theorem u5_targets : (after segE (after segD (after segC (after segB (after segA v))))) (Proc.devRef .tc main_v6) = Cert.Gcn.targets (v (Proc.devRef .tc main_arg1)) := (targets_keptE (after segD (after segC (after segB (after segA v))))).trans (u4_targets v)
theorem u5_weight : (after segE (after segD (after segC (after segB (after segA v))))) (Proc.devRef .tc main_v29) = Cert.Gcn.edgeWeight (v (Proc.devRef .tc main_arg1)) := (weight_keptE (after segD (after segC (after segB (after segA v))))).trans (u4_weight v)
theorem u5_arg4 : (after segE (after segD (after segC (after segB (after segA v))))) (Proc.devRef .tc main_arg4) = v (Proc.devRef .tc main_arg4) := (arg4_keptE (after segD (after segC (after segB (after segA v))))).trans (u4_arg4 v)
theorem u5_arg5 : (after segE (after segD (after segC (after segB (after segA v))))) (Proc.devRef .tc main_arg5) = v (Proc.devRef .tc main_arg5) := (arg5_keptE (after segD (after segC (after segB (after segA v))))).trans (u4_arg5 v)

/-! ### After the rectifier: the hidden layer -/
theorem u6_hidden : (after segF (after segE (after segD (after segC (after segB (after segA v)))))) (Proc.devRef .tc main_v47) = (Cert.Gcn.hidden (v (Proc.devRef .tc main_arg0)) (v (Proc.devRef .tc main_arg1)) (v (Proc.devRef .tc main_arg2)) (v (Proc.devRef .tc main_arg3))) :=
  (rectified_eq (after segE (after segD (after segC (after segB (after segA v)))))).trans (by rw [u5_biased]; rfl)
theorem u6_sources : (after segF (after segE (after segD (after segC (after segB (after segA v)))))) (Proc.devRef .tc main_v3) = Cert.Gcn.sources (v (Proc.devRef .tc main_arg1)) := (sources_keptF (after segE (after segD (after segC (after segB (after segA v)))))).trans (u5_sources v)
theorem u6_targets : (after segF (after segE (after segD (after segC (after segB (after segA v)))))) (Proc.devRef .tc main_v6) = Cert.Gcn.targets (v (Proc.devRef .tc main_arg1)) := (targets_keptF (after segE (after segD (after segC (after segB (after segA v)))))).trans (u5_targets v)
theorem u6_weight : (after segF (after segE (after segD (after segC (after segB (after segA v)))))) (Proc.devRef .tc main_v29) = Cert.Gcn.edgeWeight (v (Proc.devRef .tc main_arg1)) := (weight_keptF (after segE (after segD (after segC (after segB (after segA v)))))).trans (u5_weight v)
theorem u6_arg4 : (after segF (after segE (after segD (after segC (after segB (after segA v)))))) (Proc.devRef .tc main_arg4) = v (Proc.devRef .tc main_arg4) := (arg4_keptF (after segE (after segD (after segC (after segB (after segA v)))))).trans (u5_arg4 v)
theorem u6_arg5 : (after segF (after segE (after segD (after segC (after segB (after segA v)))))) (Proc.devRef .tc main_arg5) = v (Proc.devRef .tc main_arg5) := (arg5_keptF (after segE (after segD (after segC (after segB (after segA v)))))).trans (u5_arg5 v)

/-! ### After the second transform and its propagation -/
theorem u7_propagated : (after segG (after segF (after segE (after segD (after segC (after segB (after segA v))))))) (Proc.devRef .tc main_v61) = (Cert.Gcn.propagate47 (v (Proc.devRef .tc main_arg1)) (Cert.Gcn.transform1 (Cert.Gcn.hidden (v (Proc.devRef .tc main_arg0)) (v (Proc.devRef .tc main_arg1)) (v (Proc.devRef .tc main_arg2)) (v (Proc.devRef .tc main_arg3))) (v (Proc.devRef .tc main_arg4)))) :=
  (propagated2_eq (after segF (after segE (after segD (after segC (after segB (after segA v))))))).trans (by rw [u6_weight, u6_sources, u6_targets, u6_hidden, u6_arg4]; rfl)
theorem u7_arg5 : (after segG (after segF (after segE (after segD (after segC (after segB (after segA v))))))) (Proc.devRef .tc main_arg5) = v (Proc.devRef .tc main_arg5) := (arg5_keptG (after segF (after segE (after segD (after segC (after segB (after segA v))))))).trans (u6_arg5 v)

/-! ### After the second bias: the output -/
theorem u8_output : (after segH (after segG (after segF (after segE (after segD (after segC (after segB (after segA v)))))))) (Proc.devRef .tc main_v64)
    = Cert.Gcn.output (v (Proc.devRef .tc main_arg0)) (v (Proc.devRef .tc main_arg1)) (v (Proc.devRef .tc main_arg2)) (v (Proc.devRef .tc main_arg3)) (v (Proc.devRef .tc main_arg4)) (v (Proc.devRef .tc main_arg5)) :=
  (biased2_eq (after segG (after segF (after segE (after segD (after segC (after segB (after segA v)))))))).trans (by rw [u7_propagated, u7_arg5]; rfl)

/-- THE REFERENCE'S RESULT: the fold of its operations, read at the result buffer, is the network's output of the
    arguments as found. -/
theorem result_eq : after (ops (F := Ideal)) v (Proc.devRef .tc main_v64)
    = Cert.Gcn.output (v (Proc.devRef .tc main_arg0)) (v (Proc.devRef .tc main_arg1)) (v (Proc.devRef .tc main_arg2)) (v (Proc.devRef .tc main_arg3)) (v (Proc.devRef .tc main_arg4)) (v (Proc.devRef .tc main_arg5)) := by
  rw [after_ops]
  exact u8_output v

set_option maxHeartbeats 4000000 in
theorem arg0_kept : after (ops (F := Ideal)) v (Proc.devRef .tc main_arg0) = v (Proc.devRef .tc main_arg0) := by host_kept ops
set_option maxHeartbeats 4000000 in
theorem arg1_kept : after (ops (F := Ideal)) v (Proc.devRef .tc main_arg1) = v (Proc.devRef .tc main_arg1) := by host_kept ops
set_option maxHeartbeats 4000000 in
theorem arg2_kept : after (ops (F := Ideal)) v (Proc.devRef .tc main_arg2) = v (Proc.devRef .tc main_arg2) := by host_kept ops
set_option maxHeartbeats 4000000 in
theorem arg3_kept : after (ops (F := Ideal)) v (Proc.devRef .tc main_arg3) = v (Proc.devRef .tc main_arg3) := by host_kept ops
set_option maxHeartbeats 4000000 in
theorem arg4_kept : after (ops (F := Ideal)) v (Proc.devRef .tc main_arg4) = v (Proc.devRef .tc main_arg4) := by host_kept ops
set_option maxHeartbeats 4000000 in
theorem arg5_kept : after (ops (F := Ideal)) v (Proc.devRef .tc main_arg5) = v (Proc.devRef .tc main_arg5) := by host_kept ops

end Fold

/-- Every weakly fair execution of the reference's @main terminates, nothing faulting, with its result at the network's
    output of the arguments as launched and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v64)
        = Cert.Gcn.output (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v64).trans (result_eq (launchContents m c)),
      (h c main_arg0).trans (arg0_kept (launchContents m c)),
      (h c main_arg1).trans (arg1_kept (launchContents m c)),
      (h c main_arg2).trans (arg2_kept (launchContents m c)),
      (h c main_arg3).trans (arg3_kept (launchContents m c)),
      (h c main_arg4).trans (arg4_kept (launchContents m c)),
      (h c main_arg5).trans (arg5_kept (launchContents m c))⟩)
    (run_seq scopedRefs_eq scopedSems_eq defs main (fun _ => ops) main_eq (fun _ => ops_sub) m ρ)

end Cert.ReferenceIdeal.HostRun

end
-- ==== Proof.lean ====
/-
  A two-layer graph convolution: the kernel against its reference, over the extended reals.

  Both programs compute, on a graph of 100000 nodes and 1700000 weighted edges (the given ones and a self loop per node),

      out = agg ((relu (agg (X · W₀) + b₀)) · W₁) + b₁ ,

  where `agg` sums, into each node's row, the rows at the sources of the edges arriving there, each scaled by the
  edge's weight `deg(s)^(-1/2) · deg(d)^(-1/2)` (`Proof/Network.lean`).  The reference is a straight line of host
  operations and IS this term (`Proof/ReferenceValue.lean`).  The kernel keeps the graph part as the same host lines
  and computes the two products, the two bias additions and the rectifier in four device regions, each walking 20
  tiles of 5000 rows: on a tile a product into a zero accumulator is the plain sum over the shared coordinate — the
  operands' change of float format is the identity at the ideal values — and a bias row is added to every row, so each
  region's result array is the layer of the arrays it finds (`Proof/Region0.lean` … `Region3.lean`), and the kernel's
  buffers, followed through its nine segments, end at the same term (`Proof/Fold.lean`).  No law of arithmetic is
  needed beyond these readings, and none that asks the inputs to be finite: the precondition is not used.

  The three frames: the kernel's two are the generated frame certificates; the reference's is its run with the result
  dropped.  The idealization rewrote nothing, so `preserves` has nothing to state.
-/
import proofs.«134402_j7937099563688_1_alg».proof.Defs
import proofs.«134402_j7937099563688_1_alg».proof.Proof.Gen.Kernel
import proofs.«134402_j7937099563688_1_alg».proof.Proof.Gen.Kernel.Skeleton
import proofs.«134402_j7937099563688_1_alg».proof.Proof.Gen.Kernel.Launch
import proofs.«134402_j7937099563688_1_alg».proof.Proof.Gen.Kernel.Points
import proofs.«134402_j7937099563688_1_alg».proof.Proof.Gen.Kernel.Frame
import proofs.«134402_j7937099563688_1_alg».proof.Proof.Gen.KernelIdeal
import proofs.«134402_j7937099563688_1_alg».proof.Proof.Gen.KernelIdeal.Skeleton
import proofs.«134402_j7937099563688_1_alg».proof.Proof.Gen.KernelIdeal.Launch
import proofs.«134402_j7937099563688_1_alg».proof.Proof.Gen.KernelIdeal.Points
import proofs.«134402_j7937099563688_1_alg».proof.Proof.Gen.KernelIdeal.Frame
import proofs.«134402_j7937099563688_1_alg».proof.Proof.Gen.ReferenceIdeal
import proofs.«134402_j7937099563688_1_alg».proof.Proof.Gen.Pre_finite_inputs
import proofs.«134402_j7937099563688_1_alg».proof.Proof.KernelRun
import proofs.«134402_j7937099563688_1_alg».proof.Proof.Fold
import proofs.«134402_j7937099563688_1_alg».proof.Proof.ReferenceValue
import Idealize.ShloMosaic.Adequacy
import Idealize.ShloMosaic.Init

noncomputable section

namespace Cert.Proof

open Idealize.ShloMosaic Idealize.SL.Sem

/-- The word-level kernel runs and leaves its arguments: the generated frame certificate. -/
theorem frame_kernel : Cert.frame_Kernel := fun m ρ _ => Cert.Kernel.Gen.frame m ρ

/-- The idealized kernel runs and leaves its arguments: the generated frame certificate. -/
theorem frame_kernelIdeal : Cert.frame_KernelIdeal := fun m ρ _ => Cert.KernelIdeal.Gen.frame m ρ

/-- The reference runs and leaves its arguments: its run, the result dropped. -/
theorem frame_reference : Cert.frame_ReferenceIdeal := fun m ρ _ =>
  (θ_run Cert.ReferenceIdeal.defs _ _).mono (fun _ h c => (h c).2) (Cert.ReferenceIdeal.HostRun.run m ρ)

/-- From memories agreeing on the six arguments both programs end with the network's output of them. -/
theorem algebraic : Cert.algebraic_KernelIdeal_ReferenceIdeal := by
  intro m ρ m' ρ' _ hagree
  refine ⟨fun c => Cert.Gcn.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.w9_output m ρ c), (h c).2⟩)
      (Cert.KernelIdeal.Result.run (F := Ideal) m ρ)
  · refine (θ_run Cert.ReferenceIdeal.defs _ _).mono (fun r h c => ⟨(h c).1.trans ?_, (h c).2⟩)
      (Cert.ReferenceIdeal.HostRun.run m' ρ')
    obtain ⟨e0, e1, e2, e3, e4, e5⟩ := hagree c
    rw [e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
